-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v40_0)) (v2 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v40_0) = v1 c
          ∧ r.2.mem ((c.tc : Thread Cert.KernelIdeal.nD Cert.KernelIdeal.τ).loc Cert.KernelIdeal.main_v40_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S256x64 : Shape := ⟨2, ![256, 64]⟩
abbrev S1600000 : Shape := ⟨1, ![1600000]⟩
abbrev S1000000 : Shape := ⟨1, ![1000000]⟩
abbrev S500000x64 : Shape := ⟨2, ![500000, 64]⟩
abbrev S100000x64 : Shape := ⟨2, ![100000, 64]⟩
abbrev S2x1600000 : Shape := ⟨2, ![2, 1600000]⟩
abbrev S2x500000 : Shape := ⟨2, ![2, 500000]⟩
abbrev S2x1000000 : Shape := ⟨2, ![2, 1000000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x64 : S_.BroadcastsInDim S256x64 (![] : Fin 0 → Fin S256x64.rank)
  reducesTo_S256x64_S_d0_1 : S256x64.ReducesTo [0, 1] S_
  bcast_S_S1600000 : S_.BroadcastsInDim S1600000 (![] : Fin 0 → Fin S1600000.rank)
  reducesTo_S1600000_S_d0 : S1600000.ReducesTo [0] S_
  bcast_S_S1000000 : S_.BroadcastsInDim S1000000 (![] : Fin 0 → Fin S1000000.rank)
  reducesTo_S1000000_S_d0 : S1000000.ReducesTo [0] S_
  bcast_S_S500000x64 : S_.BroadcastsInDim S500000x64 (![] : Fin 0 → Fin S500000x64.rank)
  reducesTo_S500000x64_S_d0_1 : S500000x64.ReducesTo [0, 1] S_
  bcast_S_S100000x64 : S_.BroadcastsInDim S100000x64 (![] : Fin 0 → Fin S100000x64.rank)
  reducesTo_S100000x64_S_d0_1 : S100000x64.ReducesTo [0, 1] S_

variable [Facts]

def fn_part2 {F : FTy → Type} [FloatOps F] (main_arg7 : FVec F S500000x64 .f32) (main_arg8 : FVec F S100000x64 .f32) (main_v33 : IVec S_ 1) : IVec S_ 1 :=
  let main_v34 : FVec F S500000x64 .f32 := Host.absf main_arg7
  let main_cst_12 : FVec F S_ .f32 := constant S_ .f32 0x7F800000#32
  let main_v35 : FVec F S500000x64 .f32 := broadcastInDim S500000x64 ![] bcast_S_S500000x64 main_cst_12
  let main_v36 : IVec S500000x64 1 := cmpf .olt main_v34 main_v35
  let main_c_13 : IVec S_ 1 := constantI S_ 1 1#1
  let main_v37 : IVec S_ 1 := (fun x v => Host.reduce IntOp.andi x v reducesTo_S500000x64_S_d0_1 h_S_) main_v36 main_c_13
  let main_v38 : IVec S_ 1 := andi main_v33 main_v37
  let main_v39 : FVec F S100000x64 .f32 := Host.absf main_arg8
  let main_cst_14 : FVec F S_ .f32 := constant S_ .f32 0x7F800000#32
  let main_v40 : FVec F S100000x64 .f32 := broadcastInDim S100000x64 ![] bcast_S_S100000x64 main_cst_14
  let main_v41 : IVec S100000x64 1 := cmpf .olt main_v39 main_v40
  let main_c_15 : IVec S_ 1 := constantI S_ 1 1#1
  let main_v42 : IVec S_ 1 := (fun x v => Host.reduce IntOp.andi x v reducesTo_S100000x64_S_d0_1 h_S_) main_v41 main_c_15
  let main_v43 : IVec S_ 1 := andi main_v38 main_v42
  main_v43

def fn_part1 {F : FTy → Type} [FloatOps F] (main_arg4 : FVec F S1600000 .f32) (main_arg5 : FVec F S1000000 .f32) (main_arg6 : FVec F S500000x64 .f32) (main_arg7 : FVec F S500000x64 .f32) (main_arg8 : FVec F S100000x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S1600000 .f32 := Host.absf main_arg4
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_v24 : FVec F S1000000 .f32 := Host.absf main_arg5
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_v29 : FVec F S500000x64 .f32 := Host.absf main_arg6
  let main_cst_10 : FVec F S_ .f32 := constant S_ .f32 0x7F800000#32
  let main_v30 : FVec F S500000x64 .f32 := broadcastInDim S500000x64 ![] bcast_S_S500000x64 main_cst_10
  let main_v31 : IVec S500000x64 1 := cmpf .olt main_v29 main_v30
  let main_c_11 : IVec S_ 1 := constantI S_ 1 1#1
  let main_v32 : IVec S_ 1 := (fun x v => Host.reduce IntOp.andi x v reducesTo_S500000x64_S_d0_1 h_S_) main_v31 main_c_11
  let main_v33 : IVec S_ 1 := andi main_v28 main_v32
  fn_part2 (F := F) main_arg7 main_arg8 main_v33

def fn {F : FTy → Type} [FloatOps F] (main_arg0 : FVec F S100000x256 .f32) (main_arg1 : FVec F S256x128 .f32) (main_arg2 : FVec F S256x64 .f32) (main_arg3 : FVec F S256x64 .f32) (main_arg4 : FVec F S1600000 .f32) (main_arg5 : FVec F S1000000 .f32) (main_arg6 : FVec F S500000x64 .f32) (main_arg7 : FVec F S500000x64 .f32) (main_arg8 : FVec F S100000x64 .f32) (main_arg9 : IVec S2x1600000 32) (main_arg10 : IVec S2x500000 32) (main_arg11 : IVec S2x1000000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_arg7 main_arg8 main_v13 main_v16
-- ==== Kernel.lean ====
abbrev S100000x256 : Shape := ⟨2, ![100000, 256]⟩
abbrev S256x128 : Shape := ⟨2, ![256, 128]⟩
abbrev S256x64 : Shape := ⟨2, ![256, 64]⟩
abbrev S1600000 : Shape := ⟨1, ![1600000]⟩
abbrev S1000000 : Shape := ⟨1, ![1000000]⟩
abbrev S500000x64 : Shape := ⟨2, ![500000, 64]⟩
abbrev S100000x64 : Shape := ⟨2, ![100000, 64]⟩
abbrev S2x1600000 : Shape := ⟨2, ![2, 1600000]⟩
abbrev S2x500000 : Shape := ⟨2, ![2, 500000]⟩
abbrev S2x1000000 : Shape := ⟨2, ![2, 1000000]⟩
abbrev S100000x128 : Shape := ⟨2, ![100000, 128]⟩
abbrev S2000x256 : Shape := ⟨2, ![2000, 256]⟩
abbrev S2000x128 : Shape := ⟨2, ![2000, 128]⟩
abbrev S1600000x1 : Shape := ⟨2, ![1600000, 1]⟩
abbrev S1x1600000 : Shape := ⟨2, ![1, 1600000]⟩
abbrev S_ : Shape := ⟨0, ![]⟩
abbrev S1600000x128 : Shape := ⟨2, ![1600000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S4000x128 : Shape := ⟨2, ![4000, 128]⟩
abbrev S4000x64 : Shape := ⟨2, ![4000, 64]⟩
abbrev S4000x256 : Shape := ⟨2, ![4000, 256]⟩
abbrev S1x1000000 : Shape := ⟨2, ![1, 1000000]⟩
abbrev S1000000x1 : Shape := ⟨2, ![1000000, 1]⟩
abbrev S1000000x128 : Shape := ⟨2, ![1000000, 128]⟩
abbrev S1000000x64 : Shape := ⟨2, ![1000000, 64]⟩
abbrev S4000x1 : Shape := ⟨2, ![4000, 1]⟩

abbrev nBuf : Space → Nat
  | .hbm => 101
  | .vmem => 29
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S256x64, .f32⟩
  | .hbm, ⟨3, _⟩ => ⟨S256x64, .f32⟩
  | .hbm, ⟨4, _⟩ => ⟨S1600000, .f32⟩
  | .hbm, ⟨5, _⟩ => ⟨S1000000, .f32⟩
  | .hbm, ⟨6, _⟩ => ⟨S500000x64, .f32⟩
  | .hbm, ⟨7, _⟩ => ⟨S500000x64, .f32⟩
  | .hbm, ⟨8, _⟩ => ⟨S100000x64, .f32⟩
  | .hbm, ⟨9, _⟩ => ⟨S2x1600000, .i32⟩
  | .hbm, ⟨10, _⟩ => ⟨S2x500000, .i32⟩
  | .hbm, ⟨11, _⟩ => ⟨S2x1000000, .i32⟩
  | .hbm, ⟨12, _⟩ => ⟨S100000x128, .bf16⟩
  | .hbm, ⟨13, _⟩ => ⟨S1600000x1, .f32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .bf16⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S1x1600000, .i32⟩
  | .hbm, ⟨29, _⟩ => ⟨S1600000, .i32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .bf16⟩
  | .hbm, ⟨35, _⟩ => ⟨S256x128, .f32⟩
  | .hbm, ⟨36, _⟩ => ⟨S256x128, .bf16⟩
  | .hbm, ⟨37, _⟩ => ⟨S1x500000, .i32⟩
  | .hbm, ⟨38, _⟩ => ⟨S500000, .i32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x128, .bf16⟩
  | .hbm, ⟨48, _⟩ => ⟨S1x500000, .i32⟩
  | .hbm, ⟨49, _⟩ => ⟨S500000, .i32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x128, .bf16⟩
  | .hbm, ⟨59, _⟩ => ⟨S500000x64, .f32⟩
  | .hbm, ⟨60, _⟩ => ⟨S500000x64, .f32⟩
  | .hbm, ⟨61, _⟩ => ⟨S1x1000000, .i32⟩
  | .hbm, ⟨62, _⟩ => ⟨S1000000, .i32⟩
  | .hbm, ⟨63, _⟩ => ⟨S_, .i32⟩
  | .hbm, ⟨64, _⟩ => ⟨S1000000, .i32⟩
  | .hbm, ⟨65, _⟩ => ⟨S1000000, .i1⟩
  | .hbm, ⟨66, _⟩ => ⟨S_, .i32⟩
  | .hbm, ⟨67, _⟩ => ⟨S1000000, .i32⟩
  | .hbm, ⟨68, _⟩ => ⟨S1000000, .i32⟩
  | .hbm, ⟨69, _⟩ => ⟨S1000000, .i32⟩
  | .hbm, ⟨70, _⟩ => ⟨S1000000x1, .i32⟩
  | .hbm, ⟨71, _⟩ => ⟨S1000000x128, .bf16⟩
  | .hbm, ⟨72, _⟩ => ⟨S1x1000000, .i32⟩
  | .hbm, ⟨73, _⟩ => ⟨S1000000, .i32⟩
  | .hbm, ⟨74, _⟩ => ⟨S_, .i32⟩
  | .hbm, ⟨75, _⟩ => ⟨S1000000, .i32⟩
  | .hbm, ⟨76, _⟩ => ⟨S1000000, .i1⟩
  | .hbm, ⟨77, _⟩ => ⟨S_, .i32⟩
  | .hbm, ⟨78, _⟩ => ⟨S1000000, .i32⟩
  | .hbm, ⟨79, _⟩ => ⟨S1000000, .i32⟩
  | .hbm, ⟨80, _⟩ => ⟨S1000000, .i32⟩
  | .hbm, ⟨81, _⟩ => ⟨S1000000x1, .i32⟩
  | .hbm, ⟨82, _⟩ => ⟨S1000000x128, .bf16⟩
  | .hbm, ⟨83, _⟩ => ⟨S1000000x1, .f32⟩
  | .hbm, ⟨84, _⟩ => ⟨S1000000x64, .f32⟩
  | .hbm, ⟨85, _⟩ => ⟨S1000000x64, .f32⟩
  | .hbm, ⟨86, _⟩ => ⟨S1x1000000, .i32⟩
  | .hbm, ⟨87, _⟩ => ⟨S1000000, .i32⟩
  | .hbm, ⟨88, _⟩ => ⟨S_, .f32⟩
  | .hbm, ⟨89, _⟩ => ⟨S100000x64, .f32⟩
  | .hbm, ⟨90, _⟩ => ⟨S1000000x1, .i32⟩
  | .hbm, ⟨91, _⟩ => ⟨S100000x64, .f32⟩
  | .hbm, ⟨92, _⟩ => ⟨S1x1000000, .i32⟩
  | .hbm, ⟨93, _⟩ => ⟨S1000000, .i32⟩
  | .hbm, ⟨94, _⟩ => ⟨S_, .f32⟩
  | .hbm, ⟨95, _⟩ => ⟨S100000x64, .f32⟩
  | .hbm, ⟨96, _⟩ => ⟨S1000000x1, .i32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .bf16⟩
  | .local _ .vmem, ⟨4, _⟩ => ⟨S2000x128, .bf16⟩
  | .local _ .vmem, ⟨5, _⟩ => ⟨S4000x128, .bf16⟩
  | .local _ .vmem, ⟨6, _⟩ => ⟨S4000x128, .bf16⟩
  | .local _ .vmem, ⟨7, _⟩ => ⟨S4000x128, .bf16⟩
  | .local _ .vmem, ⟨8, _⟩ => ⟨S4000x128, .bf16⟩
  | .local _ .vmem, ⟨9, _⟩ => ⟨S256x128, .bf16⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x128, .bf16⟩
  | .local _ .vmem, ⟨19, _⟩ => ⟨S4000x128, .bf16⟩
  | .local _ .vmem, ⟨20, _⟩ => ⟨S4000x128, .bf16⟩
  | .local _ .vmem, ⟨21, _⟩ => ⟨S4000x128, .bf16⟩
  | .local _ .vmem, ⟨22, _⟩ => ⟨S256x128, .bf16⟩
  | .local _ .vmem, ⟨23, _⟩ => ⟨S4000x1, .f32⟩
  | .local _ .vmem, ⟨24, _⟩ => ⟨S4000x1, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_3 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_c_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_7 : Ref sig .tc := ⟨.hbm, 74, rfl⟩
abbrev main_v52 : Ref sig .tc := ⟨.hbm, 75, rfl⟩
abbrev main_v53 : Ref sig .tc := ⟨.hbm, 76, rfl⟩
abbrev main_c_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60_0 : Ref sig .tc := ⟨.hbm, 84, rfl⟩
abbrev main_v60_1 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_10 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S1600000_S1600000x1_0 : S1600000.BroadcastsInDim S1600000x1 (![0] : Fin 1 → Fin S1600000x1.rank)
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  slices_S2x1600000_S1x1600000_0_0 : S2x1600000.Slices ![0, 0] S1x1600000
  bcast_S_S100000x128 : S_.BroadcastsInDim S100000x128 (![] : Fin 0 → Fin S100000x128.rank)
  concatenates_S256x64_S256x64_S256x128_d1 : Shape.Concatenates [S256x64, S256x64] S256x128 1
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x256_d1 : Shape.Concatenates [S4000x128, S4000x128] S4000x256 1
  shapeCasts_S256x128_S256x128 : S256x128.ShapeCasts S256x128
  slices_S4000x128_o0_0_S4000x64 : S4000x128.Slices ![0, 0] S4000x64
  slices_S4000x128_o0_64_S4000x64 : S4000x128.Slices ![0, 64] S4000x64
  inb_S4000x64_S4000x64_0_0 : ∀ a, (![0, 0] : Fin 2 → Nat) a + S4000x64.size a ≤ S4000x64.size a
  h_S4000x64 : 0 < S4000x64.numel
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S500000x1_S500000x128_1_0_n_n_0_1_1128_wf : GatherDims.WF S100000x128 S500000x1 S500000x128 [1] [0] [] [0] [] 1 ![1, 128]
  dot_S4000x256_S256x128_S4000x128_1_0_0_1_n_n_wf : DotDims.WF S4000x256 S256x128 S4000x128 [1] [0] [0] [1] [] []
  gather_S100000x128_S1000000x1_S1000000x128_1_0_n_n_0_1_1128_wf : GatherDims.WF S100000x128 S1000000x1 S1000000x128 [1] [0] [] [0] [] 1 ![1, 128]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .bf16 = 32 ∨ (Rect.block (s := S100000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S500000x128.size a
  hwx1_0 : ∀ i : grid1.Coords, EltTy.bits .bf16 = 32 ∨ (Rect.block (s := S500000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S500000x128.size a
  hwx1_1 : ∀ i : grid1.Coords, EltTy.bits .bf16 = 32 ∨ (Rect.block (s := S500000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S500000x64.size a
  hwx1_3 : ∀ i : grid1.Coords, EltTy.bits .f32 = 32 ∨ (Rect.block (s := S500000x64) S4000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S500000x64.size a
  hwx1_4 : ∀ i : grid1.Coords, EltTy.bits .f32 = 32 ∨ (Rect.block (s := S500000x64) S4000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S500000x64.size a
  hwx1_5 : ∀ i : grid1.Coords, EltTy.bits .f32 = 32 ∨ (Rect.block (s := S500000x64) S4000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S500000x64.size a
  hwx1_6 : ∀ i : grid1.Coords, EltTy.bits .f32 = 32 ∨ (Rect.block (s := S500000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S1000000x128.size a
  hwx2_0 : ∀ i : grid2.Coords, EltTy.bits .bf16 = 32 ∨ (Rect.block (s := S1000000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S1000000x128.size a
  hwx2_1 : ∀ i : grid2.Coords, EltTy.bits .bf16 = 32 ∨ (Rect.block (s := S1000000x128) S4000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S1000000x1.size a
  hwx2_3 : ∀ i : grid2.Coords, EltTy.bits .f32 = 32 ∨ (Rect.block (s := S1000000x1) S4000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S1000000x64.size a
  hwx2_4 : ∀ i : grid2.Coords, EltTy.bits .f32 = 32 ∨ (Rect.block (s := S1000000x64) S4000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S1000000x64.size a
  hwx2_5 : ∀ i : grid2.Coords, EltTy.bits .f32 = 32 ∨ (Rect.block (s := S1000000x64) S4000x64.size (cc2_transform_5 i) (hinb2_5 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S4000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v40_0) S4000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v40_1) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v60_0) S4000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v60_1) S4000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S256x64 : Shape := ⟨2, ![256, 64]⟩
abbrev S1600000 : Shape := ⟨1, ![1600000]⟩
abbrev S1000000 : Shape := ⟨1, ![1000000]⟩
abbrev S500000x64 : Shape := ⟨2, ![500000, 64]⟩
abbrev S100000x64 : Shape := ⟨2, ![100000, 64]⟩
abbrev S2x1600000 : Shape := ⟨2, ![2, 1600000]⟩
abbrev S2x500000 : Shape := ⟨2, ![2, 500000]⟩
abbrev S2x1000000 : Shape := ⟨2, ![2, 1000000]⟩
abbrev S100000x128 : Shape := ⟨2, ![100000, 128]⟩
abbrev S1600000x1 : Shape := ⟨2, ![1600000, 1]⟩
abbrev S1x1600000 : Shape := ⟨2, ![1, 1600000]⟩
abbrev S_ : Shape := ⟨0, ![]⟩
abbrev S1600000x128 : Shape := ⟨2, ![1600000, 128]⟩
abbrev S128x64 : Shape := ⟨2, ![128, 64]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S1x1000000 : Shape := ⟨2, ![1, 1000000]⟩
abbrev S1000000x1 : Shape := ⟨2, ![1000000, 1]⟩
abbrev S1000000x128 : Shape := ⟨2, ![1000000, 128]⟩
abbrev S1000000x64 : Shape := ⟨2, ![1000000, 64]⟩

abbrev nBuf : Space → Nat
  | .hbm => 132
  | .vmem => 0
  | .smem => 0
  | _ => 0

abbrev hbmTy0_0 (i : Nat) : BufTy := match i % 128 with
  | 0 => ⟨S100000x256, .f32⟩
  | 1 => ⟨S256x128, .f32⟩
  | 2 => ⟨S256x64, .f32⟩
  | 3 => ⟨S256x64, .f32⟩
  | 4 => ⟨S1600000, .f32⟩
  | 5 => ⟨S1000000, .f32⟩
  | 6 => ⟨S500000x64, .f32⟩
  | 7 => ⟨S500000x64, .f32⟩
  | 8 => ⟨S100000x64, .f32⟩
  | 9 => ⟨S2x1600000, .i32⟩
  | 10 => ⟨S2x500000, .i32⟩
  | 11 => ⟨S2x1000000, .i32⟩
  | 12 => ⟨S100000x128, .f32⟩
  | 13 => ⟨S1600000x1, .f32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S1600000x128, .f32⟩
  | 26 => ⟨S1600000x128, .f32⟩
  | 27 => ⟨S1x1600000, .i32⟩
  | 28 => ⟨S1600000, .i32⟩
  | 29 => ⟨S_, .f32⟩
  | 30 => ⟨S100000x128, .f32⟩
  | 31 => ⟨S1600000x1, .i32⟩
  | 32 => ⟨S100000x128, .f32⟩
  | 33 => ⟨S128x64, .f32⟩
  | 34 => ⟨S128x64, .f32⟩
  | 35 => ⟨S128x64, .f32⟩
  | 36 => ⟨S128x64, .f32⟩
  | 37 => ⟨S1x500000, .i32⟩
  | 38 => ⟨S500000, .i32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x128, .f32⟩
  | 48 => ⟨S1x500000, .i32⟩
  | 49 => ⟨S500000, .i32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x128, .f32⟩
  | 59 => ⟨S500000x64, .f32⟩
  | 60 => ⟨S500000x64, .f32⟩
  | 61 => ⟨S500000x64, .f32⟩
  | 62 => ⟨S500000x64, .f32⟩
  | 63 => ⟨S500000x64, .f32⟩
  | 64 => ⟨S500000x64, .f32⟩
  | 65 => ⟨S500000x64, .f32⟩
  | 66 => ⟨S500000x64, .f32⟩
  | 67 => ⟨S500000x64, .f32⟩
  | 68 => ⟨S500000x64, .f32⟩
  | 69 => ⟨S500000x64, .f32⟩
  | 70 => ⟨S500000x64, .f32⟩
  | 71 => ⟨S500000x64, .f32⟩
  | 72 => ⟨S500000x64, .f32⟩
  | 73 => ⟨S500000x64, .f32⟩
  | 74 => ⟨S500000x64, .f32⟩
  | 75 => ⟨S500000x64, .f32⟩
  | 76 => ⟨S500000x64, .f32⟩
  | 77 => ⟨S1x1000000, .i32⟩
  | 78 => ⟨S1000000, .i32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000x128, .f32⟩
  | 88 => ⟨S1x1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x128, .f32⟩
  | 99 => ⟨S1000000x64, .f32⟩
  | 100 => ⟨S1000000x64, .f32⟩
  | 101 => ⟨S1000000x64, .f32⟩
  | 102 => ⟨S1000000x64, .f32⟩
  | 103 => ⟨S1000000x64, .f32⟩
  | 104 => ⟨S1000000x64, .f32⟩
  | 105 => ⟨S1000000x1, .f32⟩
  | 106 => ⟨S1000000x64, .f32⟩
  | 107 => ⟨S1000000x64, .f32⟩
  | 108 => ⟨S1x1000000, .i32⟩
  | 109 => ⟨S1000000, .i32⟩
  | 110 => ⟨S_, .f32⟩
  | 111 => ⟨S100000x64, .f32⟩
  | 112 => ⟨S1000000x1, .i32⟩
  | 113 => ⟨S100000x64, .f32⟩
  | 114 => ⟨S1000000, .f32⟩
  | 115 => ⟨S1000000x1, .f32⟩
  | 116 => ⟨S1000000x64, .f32⟩
  | 117 => ⟨S1000000x64, .f32⟩
  | 118 => ⟨S1000000x64, .f32⟩
  | 119 => ⟨S1x1000000, .i32⟩
  | 120 => ⟨S1000000, .i32⟩
  | 121 => ⟨S_, .f32⟩
  | 122 => ⟨S100000x64, .f32⟩
  | 123 => ⟨S1000000x1, .i32⟩
  | 124 => ⟨S100000x64, .f32⟩
  | 125 => ⟨S100000x64, .f32⟩
  | 126 => ⟨S_, .f32⟩
  | 127 => ⟨S100000x64, .f32⟩
  | _ => ⟨S100000x256, .f32⟩

abbrev hbmTy0_1 (i : Nat) : BufTy := match i % 128 with
  | 0 => ⟨S100000x64, .f32⟩
  | 1 => ⟨S100000x64, .f32⟩
  | 2 => ⟨S100000x64, .f32⟩
  | 3 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_3 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_5 : Ref sig .tc := ⟨.hbm, 79, rfl⟩
abbrev main_v60 : Ref sig .tc := ⟨.hbm, 80, rfl⟩
abbrev main_v61 : Ref sig .tc := ⟨.hbm, 81, rfl⟩
abbrev main_c_6 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_7 : Ref sig .tc := ⟨.hbm, 90, rfl⟩
abbrev main_v69 : Ref sig .tc := ⟨.hbm, 91, rfl⟩
abbrev main_v70 : Ref sig .tc := ⟨.hbm, 92, rfl⟩
abbrev main_c_8 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_9 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_10 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_11 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  slices_S2x1600000_S1x1600000_0_0 : S2x1600000.Slices ![0, 0] S1x1600000
  bcast_S_S100000x128 : S_.BroadcastsInDim S100000x128 (![] : Fin 0 → Fin S100000x128.rank)
  slices_S256x64_S128x64_0_0 : S256x64.Slices ![0, 0] S128x64
  slices_S256x64_S128x64_128_0 : S256x64.Slices ![128, 0] S128x64
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S500000x1_S500000x128_1_0_n_n_0_1_1128_wf : GatherDims.WF S100000x128 S500000x1 S500000x128 [1] [0] [] [0] [] 1 ![1, 128]
  dot_S500000x128_S128x64_S500000x64_1_0_0_1_n_n_wf : DotDims.WF S500000x128 S128x64 S500000x64 [1] [0] [0] [1] [] []
  gather_S100000x128_S1000000x1_S1000000x128_1_0_n_n_0_1_1128_wf : GatherDims.WF S100000x128 S1000000x1 S1000000x128 [1] [0] [] [0] [] 1 ![1, 128]
  dot_S1000000x128_S128x64_S1000000x64_1_0_0_1_n_n_wf : DotDims.WF S1000000x128 S128x64 S1000000x64 [1] [0] [0] [1] [] []
  scatter_S100000x64_S1000000x1_S1000000x64_1_0_0_1_wf : ScatterDims.WF S100000x64 S1000000x1 S1000000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.KRun.lean ====
/-
  The idealized kernel's run with its three result buffers named. The program is three launches among four
  stretches of host operations; after the last stretch every unscoped buffer of a core holds the fold `W6` of the
  whole program over the launch memory. The run below states that for the three results, beside the twelve
  arguments ending as launched.
-/
import proofs.«103695_j56556129354623_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the
    fold's contents and the arguments as launched. -/
theorem run_results : θ_run defs (onTc (τ := τ) (main (F := F))) ⟨m, fun _ => 0, ρ⟩ (fun r => ∀ c : Dev nD,
      r.2.mem ((c.tc : Thread nD τ).loc main_v73) = W6 m ρ c (Proc.devRef .tc main_v73)
      ∧ r.2.mem ((c.tc : Thread nD τ).loc main_v40_0) = W6 m ρ c (Proc.devRef .tc main_v40_0)
      ∧ r.2.mem ((c.tc : Thread nD τ).loc main_v40_1) = W6 m ρ c (Proc.devRef .tc main_v40_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v73 (by decide)),
       h c _ (mem_uc main_v40_0 (by decide)),
       h c _ (mem_uc main_v40_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Gen

end
-- ==== Proof.RegionXw.lean ====
/-
  The first launch: a [100000,256] by [256,128] product computed 2000 rows at a time. After its fifty grid points
  the output array is the whole product of the two input arrays as the launch found them, index by index.
-/
import proofs.«103695_j56556129354623_2_alg».proof.Proof.Gen.KernelIdeal.Frame
import proofs.«103695_j56556129354623_2_alg».proof.Proof.Gen.ReferenceIdeal.Read
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionXw

open Idealize.ShloMosaic Idealize.ShloMosaic.TcCoe Idealize.SL.Sem
open Cert.KernelIdeal Cert.KernelIdeal.Gen

/-- A core's buffer contents when a launch is entered. -/
abbrev VT := (c : Dev nD) → (b : Ref sig .tc) → Buf (Elt Ideal) ((c : Thread nD τ).loc b)

open Idealize.ShloMosaic.ValueIdx
open Idealize.ShloMosaic.Pipeline (Dat)

/-- The offsets of a whole-buffer access are zero on both axes. -/
theorem hz : (![0, 0] : Fin 2 → Nat) = fun _ => 0 := funext fun a => by fin_cases a <;> rfl

/-- The product of the two arrays: the right-hand side of the claim. -/
abbrev xwProd (X : FVec Ideal S100000x256 .f32) (W : FVec Ideal S256x128 .f32) : FVec Ideal S100000x128 .f32 :=
  Host.dotGeneral (F := Ideal) (φ₁ := .f32) (φ₂ := .f32) Cert.ReferenceIdeal.dot_S100000x256_S256x128_S100000x128_1_0_0_1_n_n none X W

set_option maxHeartbeats 400000 in
/-- The product at row `r`, column `q` is the sum over `k` of `X (r, k) * W (k, q)`. -/
theorem xwProd_apply (X : FVec Ideal S100000x256 .f32) (W : FVec Ideal S256x128 .f32) (r : Fin 100000) (q : Fin 128) :
    xwProd X W (ix2 r q) = ∑ k : Fin 256, X (ix2 r k) * W (ix2 k q) := by
  have el : ∀ k, Cert.ReferenceIdeal.Read.lidx_main_v0 (ix2 r q) k = ix2 r k := fun k => funext fun a => by
    match a with
    | ⟨0, _⟩ => rfl
    | ⟨1, _⟩ => rfl
  have er : ∀ k, Cert.ReferenceIdeal.Read.ridx_main_v0 (ix2 r q) k = ix2 k q := fun k => funext fun a => by
    match a with
    | ⟨0, _⟩ => rfl
    | ⟨1, _⟩ => rfl
  refine (Cert.ReferenceIdeal.Read.val_main_v0_apply X W (ix2 r q)).trans ?_
  refine Finset.sum_congr rfl fun k _ => ?_
  rw [el, er]

/-- The left operand's index of the block product, axis by axis: the output's row, then the contraction's coordinate. -/
theorem lhs_blk_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_blk_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's index: the contraction's coordinate, then the output's column. -/
theorem rhs_blk_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_blk_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

set_option maxHeartbeats 400000 in
/-- One block's payload at row `p`, column `q`: both roundings are the identity at the ideal values and the
    accumulator is zero, so it is the sum over `k` of `x0 (p, k) * x1 (k, q)`. -/
theorem pay_apply (x0 : Vec Ideal S2000x256 .f32) (x1 : Vec Ideal S256x128 .f32) (p : Fin 2000) (q : Fin 128) :
    k0_pay1 (F := Ideal) x0 x1 (ix2 p q) = ∑ k : Fin 256, x0 (ix2 p k) * x1 (ix2 k q) := by
  unfold k0_pay1
  refine (Ideal.matmul_constant_zero_apply (φ₁ := .bf16) (φ₂ := .bf16) dot_S2000x256_S256x128_S2000x128_1_0_0_1_n_n none x0 x1 (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs_blk_0 _ _
    | ⟨1, _⟩ => exact (lhs_blk_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs_blk_0 _ _).trans hk
    | ⟨1, _⟩ => exact rhs_blk_1 _ _)
  rw [el, er]

/-- The printed index maps over the grid: at point `t` the left operand's window and the output's are at block
    `(t, 0)`, the right operand's at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 400000 in
/-- A block product is the rows of the whole product it was cut from: if `x0` is rows `2000 t …` of `X` and `x1` is
    `W`, the payload at `(p, q)` is the product of `X` and `W` at row `2000 t + p`, column `q`. -/
theorem blk_eq (X : FVec Ideal S100000x256 .f32) (W : FVec Ideal S256x128 .f32)
    (x0 : Vec Ideal S2000x256 .f32) (x1 : Vec Ideal S256x128 .f32) (t : Nat)
    (h0 : ∀ (p : Fin 2000) (k : Fin 256) (r : Fin 100000), r.val = t * 2000 + p.val → x0 (ix2 p k) = X (ix2 r k))
    (h1 : ∀ (k : Fin 256) (q : Fin 128), x1 (ix2 k q) = W (ix2 k q))
    (j : S2000x128.Idx) (i : S100000x128.Idx) (hi0 : (i 0).val = t * 2000 + (j 0).val) (hi1 : (i 1).val = (j 1).val) :
    k0_pay1 (F := Ideal) x0 x1 j = xwProd X W i := by
  obtain ⟨p, q, rfl⟩ : ∃ (p : Fin 2000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext hi1
  rw [pay_apply, xwProd_apply]
  exact Finset.sum_congr rfl fun k _ => by rw [h0 p k r hi0, h1 k s]

set_option maxHeartbeats 400000 in
/-- What point `t` writes back is block `t` of the product of the two arrays as the launch finds them. -/
theorem flushed_eq (V : VT) (c : Dev nD) (t : Fin cfg0.N) :
    (dat0 (F := Ideal) V c).flushed 2 t
      = ((cfg0.win 2).blk t).view.read (Elt Ideal) (xwProd (V c main_arg0) (V c main_arg1)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨e0, e1, e2, e3, e4, e5⟩ := idx_facts t
  funext j
  show k0_pay1 (F := Ideal) (iblk0 V c 0 t) (iblk0 V c 1 t) j
    = xwProd (V c main_arg0) (V c main_arg1) (((cfg0.win 2).blk t).view.emb j)
  refine blk_eq (V c main_arg0) (V c main_arg1) (iblk0 V c 0 t) (iblk0 V c 1 t) t.val ?_ ?_ j _ ?_ ?_
  · intro p k r hr
    show V c main_arg0 (((cfg0.win 0).blk t).view.emb (ix2 p k)) = V c main_arg0 (ix2 r k)
    refine congrArg _ (funext fun a => Fin.ext ?_)
    match a with
    | ⟨0, _⟩ => show win0_0.index t (0 : Fin 2) * 2000 + 1 * p.val = r.val; omega
    | ⟨1, _⟩ => show win0_0.index t (1 : Fin 2) * 256 + 1 * k.val = k.val; omega
  · intro k q
    show V c main_arg1 (((cfg0.win 1).blk t).view.emb (ix2 k q)) = V c main_arg1 (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show win0_2.index t (0 : Fin 2) * 2000 + 1 * (j 0).val = t.val * 2000 + (j 0).val; omega
  · show win0_2.index t (1 : Fin 2) * 128 + 1 * (j 1).val = (j 1).val; omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

set_option maxHeartbeats 400000 in
/-- The fifty blocks tile the output array: row `r` is in the block of point `r / 2000`, which is written back. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 50 := N_0
  obtain ⟨t, ht⟩ : ∃ t : Fin cfg0.N, t.val = (i 0).val / 2000 :=
    ⟨⟨(i 0).val / 2000, by show (i 0).val / 2000 < grid0.N; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

theorem arr0_2 (V : VT) (c : Dev nD) :
    (dat0 (F := Ideal) V c).arrAt 2 cfg0.N
      = Host.dotGeneral (F := Ideal) (φ₁ := .f32) (φ₂ := .f32) Cert.ReferenceIdeal.dot_S100000x256_S256x128_S100000x128_1_0_0_1_n_n none (V c main_arg0 : FVec Ideal S100000x256 .f32) (V c main_arg1 : FVec Ideal S256x128 .f32) :=
  (dat0 (F := Ideal) V c).arrAt_eq_of_cover 2 (xwProd (V c main_arg0) (V c main_arg1)) (fun t _ => flushed_eq V c t) cover

end Cert.KernelIdeal.RegionXw

end
-- ==== Proof.StageBase.lean ====
/-
  The idealized kernel's fold, read buffer by buffer as functions of the launch arguments: the common vocabulary.
  A change of float format is the identity on extended reals; the gathers and scatter-adds of the two printed programs
  are the same functions; the twelve launch arguments; what the first launch leaves.
-/
import proofs.«103695_j56556129354623_2_alg».proof.Proof.Gen.KernelIdeal.Frame
import proofs.«103695_j56556129354623_2_alg».proof.Proof.Gen.ReferenceIdeal.Read
import proofs.«103695_j56556129354623_2_alg».proof.Proof.RegionXw
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-- A buffer no operation of a host stretch writes keeps its contents over the stretch. -/
macro "not_written" ops:ident : tactic => `(tactic|
  (refine List.forall_iff_forall_mem.mp ?_
   simp only [$ops:ident, List.flatten_cons, List.flatten_nil, List.append_nil, List.cons_append,
     List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide)))

/-! ## A change of float format is the identity on extended reals; the two programs' gathers and scatter-adds are the
    same functions (their dimension records are spelt identically in both printed programs) -/

theorem truncf_id {s : Shape} (X : FVec Ideal s .f32) (h : FTy.bf16.bits < FTy.f32.bits) :
    (truncf .bf16 X h : s.Idx → EReal) = X := rfl
theorem extf_id {s : Shape} (X : FVec Ideal s .bf16) (h : FTy.bf16.bits < FTy.f32.bits) :
    (extf .f32 X h : s.Idx → EReal) = X := rfl

theorem scatter128_congr {Z Z' : FVec Ideal S100000x128 .f32} {I I' : IVec S1600000x1 32} {U U' : FVec Ideal S1600000x128 .f32}
    (hZ : Z = Z') (hI : I = I') (hU : U = U') :
    Host.scatterAdd (F := Ideal) scatter_S100000x128_S1600000x1_S1600000x128_1_0_0_1 Z I U
      = Host.scatterAdd (F := Ideal) Cert.ReferenceIdeal.scatter_S100000x128_S1600000x1_S1600000x128_1_0_0_1 Z' I' U' := by
  subst hZ; subst hI; subst hU; rfl
theorem scatter64_congr {Z Z' : FVec Ideal S100000x64 .f32} {I I' : IVec S1000000x1 32} {U U' : FVec Ideal S1000000x64 .f32}
    (hZ : Z = Z') (hI : I = I') (hU : U = U') :
    Host.scatterAdd (F := Ideal) scatter_S100000x64_S1000000x1_S1000000x64_1_0_0_1 Z I U
      = Host.scatterAdd (F := Ideal) Cert.ReferenceIdeal.scatter_S100000x64_S1000000x1_S1000000x64_1_0_0_1 Z' I' U' := by
  subst hZ; subst hI; subst hU; rfl
theorem gather16_congr {X X' : S100000x128.Idx → EReal} {I I' : IVec S1600000x1 32} (hX : X = X') (hI : I = I') :
    Host.gather gather_S100000x128_S1600000x1_S1600000x128_1_0_n_n_0_1_1128 X I
      = Host.gather Cert.ReferenceIdeal.gather_S100000x128_S1600000x1_S1600000x128_1_0_n_n_0_1_1128 X' I' := by
  subst hX; subst hI; rfl
theorem gather5_congr {X X' : S100000x128.Idx → EReal} {I I' : IVec S500000x1 32} (hX : X = X') (hI : I = I') :
    Host.gather gather_S100000x128_S500000x1_S500000x128_1_0_n_n_0_1_1128 X I
      = Host.gather Cert.ReferenceIdeal.gather_S100000x128_S500000x1_S500000x128_1_0_n_n_0_1_1128 X' I' := by
  subst hX; subst hI; rfl
theorem gather10_congr {X X' : S100000x128.Idx → EReal} {I I' : IVec S1000000x1 32} (hX : X = X') (hI : I = I') :
    Host.gather gather_S100000x128_S1000000x1_S1000000x128_1_0_n_n_0_1_1128 X I
      = Host.gather Cert.ReferenceIdeal.gather_S100000x128_S1000000x1_S1000000x128_1_0_n_n_0_1_1128 X' I' := by
  subst hX; subst hI; rfl

/-- The host's product does not depend on the operands' float formats. -/
theorem dot_format {sl sr so : Shape} (d : DotDims sl sr so) (X : sl.Idx → EReal) (Y : FVec Ideal sr .f32) :
    Host.dotGeneral (F := Ideal) (φ₁ := .bf16) (φ₂ := .f32) d none X Y = Host.dotGeneral (F := Ideal) (φ₁ := .f32) (φ₂ := .f32) d none X Y := rfl

/-- Two weights laid side by side: equal pieces give equal rows. -/
theorem packed_congr {a a' b b' : FVec Ideal S256x64 .f32} (ha : a = a') (hb : b = b') :
    concatenate S256x128 1 [⟨S256x64, a⟩, ⟨S256x64, b⟩] Cert.KernelIdeal.Facts₀.concatenates_S256x64_S256x64_S256x128_d1
      = concatenate S256x128 1 [⟨S256x64, a'⟩, ⟨S256x64, b'⟩] Cert.KernelIdeal.Facts₀.concatenates_S256x64_S256x64_S256x128_d1 := by
  subst ha; subst hb; rfl

/-! ## The launch arguments -/

abbrev A0 : Buf (Elt Ideal) ((c : Thread nD τ).loc main_arg0) := m ((c : Thread nD τ).loc main_arg0)
abbrev A1 : Buf (Elt Ideal) ((c : Thread nD τ).loc main_arg1) := m ((c : Thread nD τ).loc main_arg1)
abbrev A2 : Buf (Elt Ideal) ((c : Thread nD τ).loc main_arg2) := m ((c : Thread nD τ).loc main_arg2)
abbrev A3 : Buf (Elt Ideal) ((c : Thread nD τ).loc main_arg3) := m ((c : Thread nD τ).loc main_arg3)
abbrev A4 : Buf (Elt Ideal) ((c : Thread nD τ).loc main_arg4) := m ((c : Thread nD τ).loc main_arg4)
abbrev A5 : Buf (Elt Ideal) ((c : Thread nD τ).loc main_arg5) := m ((c : Thread nD τ).loc main_arg5)
abbrev A6 : Buf (Elt Ideal) ((c : Thread nD τ).loc main_arg6) := m ((c : Thread nD τ).loc main_arg6)
abbrev A7 : Buf (Elt Ideal) ((c : Thread nD τ).loc main_arg7) := m ((c : Thread nD τ).loc main_arg7)
abbrev A8 : Buf (Elt Ideal) ((c : Thread nD τ).loc main_arg8) := m ((c : Thread nD τ).loc main_arg8)
abbrev A9 : Buf (Elt Ideal) ((c : Thread nD τ).loc main_arg9) := m ((c : Thread nD τ).loc main_arg9)
abbrev A10 : Buf (Elt Ideal) ((c : Thread nD τ).loc main_arg10) := m ((c : Thread nD τ).loc main_arg10)
abbrev A11 : Buf (Elt Ideal) ((c : Thread nD τ).loc main_arg11) := m ((c : Thread nD τ).loc main_arg11)

/-- The packed weight: W_miu beside W_sigma. -/
abbrev packed : FVec Ideal S256x128 .f32 :=
  concatenate S256x128 1 [⟨S256x64, A2 m c⟩, ⟨S256x64, A3 m c⟩] Cert.KernelIdeal.Facts₀.concatenates_S256x64_S256x64_S256x128_d1

/-! ## After the first launch -/

theorem W1_v0 : W1 m ρ c (Proc.devRef .tc main_v0) = val_main_v0 (F := Ideal) (A0 m c) (A1 m c) :=
  (W1_arr m ρ c 2).trans (Cert.KernelIdeal.RegionXw.arr0_2 (V0 m ρ) c)
theorem W1_arg2 : W1 m ρ c (Proc.devRef .tc main_arg2) = (A2 m c) := W1_of_ne m ρ c main_arg2 (by decide)
theorem W1_arg3 : W1 m ρ c (Proc.devRef .tc main_arg3) = (A3 m c) := W1_of_ne m ρ c main_arg3 (by decide)
theorem W1_arg4 : W1 m ρ c (Proc.devRef .tc main_arg4) = (A4 m c) := W1_of_ne m ρ c main_arg4 (by decide)
theorem W1_arg5 : W1 m ρ c (Proc.devRef .tc main_arg5) = (A5 m c) := W1_of_ne m ρ c main_arg5 (by decide)
theorem W1_arg6 : W1 m ρ c (Proc.devRef .tc main_arg6) = (A6 m c) := W1_of_ne m ρ c main_arg6 (by decide)
theorem W1_arg7 : W1 m ρ c (Proc.devRef .tc main_arg7) = (A7 m c) := W1_of_ne m ρ c main_arg7 (by decide)
theorem W1_arg8 : W1 m ρ c (Proc.devRef .tc main_arg8) = (A8 m c) := W1_of_ne m ρ c main_arg8 (by decide)
theorem W1_arg9 : W1 m ρ c (Proc.devRef .tc main_arg9) = (A9 m c) := W1_of_ne m ρ c main_arg9 (by decide)
theorem W1_arg10 : W1 m ρ c (Proc.devRef .tc main_arg10) = (A10 m c) := W1_of_ne m ρ c main_arg10 (by decide)
theorem W1_arg11 : W1 m ρ c (Proc.devRef .tc main_arg11) = (A11 m c) := W1_of_ne m ρ c main_arg11 (by decide)

/-- The hidden rows as the kernel's program computes them (a scatter-add of scaled gathered rows of the first launch's
    product, stored in the short format) are the reference's hidden rows. -/
macro "hidden_rows" : tactic => `(tactic|
  (refine (truncf_id _ _).trans ?_
   unfold val_main_v17
   refine scatter128_congr rfl rfl ?_
   unfold val_main_v12
   refine congrArg₂ mulf rfl ?_
   refine (extf_id _ _).trans ?_
   unfold val_main_v10
   exact gather16_congr rfl rfl))

end Cert.KernelIdeal.Stages

end
-- ==== Proof.StageHidden.lean ====
/-
  After the first host stretch: the hidden rows (a scatter-add, along the graph's non-zeros, of the first launch's
  product rows scaled by the non-zero's value) and the packed weight, as the reference's stage functions of the
  launch arguments.
-/
import proofs.«103695_j56556129354623_2_alg».proof.Proof.Gen.KernelIdeal.Frame
import proofs.«103695_j56556129354623_2_alg».proof.Proof.Gen.ReferenceIdeal.Read
import proofs.«103695_j56556129354623_2_alg».proof.Proof.StageBase
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-! ## After the first host stretch: the hidden rows and the packed weight -/

set_option maxHeartbeats 400000 in
theorem W2_v19 : W2 m ρ c (Proc.devRef .tc main_v19) = val_main_v17 (F := Ideal) (A0 m c) (A1 m c) (A4 m c) (A9 m c) := by
  show StableHlo.after hostOps1 (W1 m ρ c) (Proc.devRef .tc main_v19) = _
  after_results_simp
  rw [W1_v0, W1_arg4, W1_arg9]
  hidden_rows

set_option maxHeartbeats 400000 in
theorem W2_v21 : W2 m ρ c (Proc.devRef .tc main_v21) = packed m c := by
  show StableHlo.after hostOps1 (W1 m ρ c) (Proc.devRef .tc main_v21) = _
  after_results_simp
  refine (truncf_id _ _).trans (packed_congr ?_ ?_)
  · after_results_simp
    exact W1_arg2 m ρ c
  · after_results_simp
    exact W1_arg3 m ρ c

theorem W2_arg5 : W2 m ρ c (Proc.devRef .tc main_arg5) = (A5 m c) :=
  (StableHlo.after_of_forall_not_mem (b := Proc.devRef .tc main_arg5) _ _ (by not_written hostOps1)).trans (W1_arg5 m ρ c)
theorem W2_arg6 : W2 m ρ c (Proc.devRef .tc main_arg6) = (A6 m c) :=
  (StableHlo.after_of_forall_not_mem (b := Proc.devRef .tc main_arg6) _ _ (by not_written hostOps1)).trans (W1_arg6 m ρ c)
theorem W2_arg7 : W2 m ρ c (Proc.devRef .tc main_arg7) = (A7 m c) :=
  (StableHlo.after_of_forall_not_mem (b := Proc.devRef .tc main_arg7) _ _ (by not_written hostOps1)).trans (W1_arg7 m ρ c)
theorem W2_arg8 : W2 m ρ c (Proc.devRef .tc main_arg8) = (A8 m c) :=
  (StableHlo.after_of_forall_not_mem (b := Proc.devRef .tc main_arg8) _ _ (by not_written hostOps1)).trans (W1_arg8 m ρ c)
theorem W2_arg11 : W2 m ρ c (Proc.devRef .tc main_arg11) = (A11 m c) :=
  (StableHlo.after_of_forall_not_mem (b := Proc.devRef .tc main_arg11) _ _ (by not_written hostOps1)).trans (W1_arg11 m ρ c)

end Cert.KernelIdeal.Stages

end
-- ==== Proof.StageEdgeRows.lean ====
/-
  After the first host stretch: the hidden rows gathered at the source and at the target of every directed edge, as
  the reference's stage functions of the launch arguments.
-/
import proofs.«103695_j56556129354623_2_alg».proof.Proof.Gen.KernelIdeal.Frame
import proofs.«103695_j56556129354623_2_alg».proof.Proof.Gen.ReferenceIdeal.Read
import proofs.«103695_j56556129354623_2_alg».proof.Proof.StageBase
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-! ## After the first host stretch: the gathered hidden rows at the two ends of every directed edge -/

set_option maxHeartbeats 400000 in
theorem W2_v30 : W2 m ρ c (Proc.devRef .tc main_v30) = val_main_v30 (F := Ideal) (A0 m c) (A1 m c) (A4 m c) (A9 m c) (A10 m c) := by
  show StableHlo.after hostOps1 (W1 m ρ c) (Proc.devRef .tc main_v30) = _
  after_results_simp
  rw [W1_v0, W1_arg4, W1_arg9, W1_arg10]
  unfold val_main_v30
  refine gather5_congr ?_ rfl
  hidden_rows

set_option maxHeartbeats 400000 in
theorem W2_v39 : W2 m ρ c (Proc.devRef .tc main_v39) = val_main_v39 (F := Ideal) (A0 m c) (A1 m c) (A4 m c) (A9 m c) (A10 m c) := by
  show StableHlo.after hostOps1 (W1 m ρ c) (Proc.devRef .tc main_v39) = _
  after_results_simp
  rw [W1_v0, W1_arg4, W1_arg9, W1_arg10]
  unfold val_main_v39
  refine gather5_congr ?_ rfl
  hidden_rows

end Cert.KernelIdeal.Stages

end
-- ==== Proof.RegionEdge.lean ====
/-
  The second launch: for 500000 directed edges, 4000 at a time, the two gathered hidden rows of an edge are laid side
  by side and multiplied by the packed weight [W_miu | W_sigma]; the left 64 columns are a mean, the right 64 a log
  deviation, and the result is noise * exp(log deviation) + mean. Row by row that is the reference's split-weight form.
-/
import proofs.«103695_j56556129354623_2_alg».proof.Proof.Gen.KernelIdeal.Frame
import proofs.«103695_j56556129354623_2_alg».proof.Proof.Gen.ReferenceIdeal.Read
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionEdge

open Idealize.ShloMosaic Idealize.ShloMosaic.TcCoe Idealize.SL.Sem
open Cert.KernelIdeal Cert.KernelIdeal.Gen
open Idealize.ShloMosaic.ValueIdx

/-- A core's buffer contents when a launch is entered. -/
abbrev VT := (c : Dev nD) → (b : Ref sig .tc) → Buf (Elt Ideal) ((c : Thread nD τ).loc b)

abbrev dotE := Cert.ReferenceIdeal.dot_S500000x128_S128x64_S500000x64_1_0_0_1_n_n
abbrev dotB := Cert.ReferenceIdeal.dot_S1000000x128_S128x64_S1000000x64_1_0_0_1_n_n
/-- Rows 0..127 of a 256-row weight. -/
abbrev top (W : FVec Ideal S256x64 .f32) : FVec Ideal Cert.ReferenceIdeal.S128x64 .f32 :=
  extractStridedSlice Cert.ReferenceIdeal.S128x64 ![0, 0] W Cert.ReferenceIdeal.Facts₀.slices_S256x64_S128x64_0_0
/-- Rows 128..255 of a 256-row weight. -/
abbrev bot (W : FVec Ideal S256x64 .f32) : FVec Ideal Cert.ReferenceIdeal.S128x64 .f32 :=
  extractStridedSlice Cert.ReferenceIdeal.S128x64 ![128, 0] W Cert.ReferenceIdeal.Facts₀.slices_S256x64_S128x64_128_0

/-! ## Sums and layout operations at an index -/

/-- A sum over 256 terms is the sum of its first 128 and its last 128. -/
theorem sum_halves (f : Fin 256 → EReal) :
    ∑ k : Fin 256, f k = (∑ k : Fin 128, f ⟨k.val, by have := k.isLt; omega⟩) + ∑ k : Fin 128, f ⟨128 + k.val, by have := k.isLt; omega⟩ :=
  Fin.sum_univ_add (a := 128) (b := 128) f

/-- Two [4000,128] blocks side by side, read in the left half. -/
theorem cat_left (x0 x1 : FVec Ideal S4000x128 .bf16) (h : Shape.Concatenates [S4000x128, S4000x128] S4000x256 1)
    (p : Fin 4000) (k : Fin 128) :
    concatenate S4000x256 1 [⟨S4000x128, x0⟩, ⟨S4000x128, x1⟩] h (ix2 p (⟨k.val, by have := k.isLt; omega⟩ : Fin 256)) = x0 (ix2 p k) :=
  concatenate_pair_apply_left 1 x0 x1 h _ rfl (ix2 p k) (fun b => match b with
    | ⟨0, _⟩ => rfl
    | ⟨1, _⟩ => rfl)

/-- Two [4000,128] blocks side by side, read in the right half. -/
theorem cat_right (x0 x1 : FVec Ideal S4000x128 .bf16) (h : Shape.Concatenates [S4000x128, S4000x128] S4000x256 1)
    (p : Fin 4000) (k : Fin 128) :
    concatenate S4000x256 1 [⟨S4000x128, x0⟩, ⟨S4000x128, x1⟩] h (ix2 p (⟨128 + k.val, by have := k.isLt; omega⟩ : Fin 256)) = x1 (ix2 p k) :=
  concatenate_pair_apply_right 1 x0 x1 h _ rfl rfl (ix2 p k) (fun b hb => match b, hb with
    | ⟨0, _⟩, _ => rfl
    | ⟨1, _⟩, hb => absurd rfl hb) (by show k.val + 128 = 128 + k.val; omega)

/-- The packed weight [Wm | Ws], read in its left 64 columns. -/
theorem wcat_left (Wm Ws : FVec Ideal S256x64 .f32) (h : Shape.Concatenates [S256x64, S256x64] S256x128 1)
    (k : Fin 256) (q : Fin 64) :
    concatenate S256x128 1 [⟨S256x64, Wm⟩, ⟨S256x64, Ws⟩] h (ix2 k (⟨q.val, by have := q.isLt; omega⟩ : Fin 128)) = Wm (ix2 k q) :=
  concatenate_pair_apply_left 1 Wm Ws h _ rfl (ix2 k q) (fun b => match b with
    | ⟨0, _⟩ => rfl
    | ⟨1, _⟩ => rfl)

/-- The packed weight [Wm | Ws], read in its right 64 columns. -/
theorem wcat_right (Wm Ws : FVec Ideal S256x64 .f32) (h : Shape.Concatenates [S256x64, S256x64] S256x128 1)
    (k : Fin 256) (q : Fin 64) :
    concatenate S256x128 1 [⟨S256x64, Wm⟩, ⟨S256x64, Ws⟩] h (ix2 k (⟨64 + q.val, by have := q.isLt; omega⟩ : Fin 128)) = Ws (ix2 k q) :=
  concatenate_pair_apply_right 1 Wm Ws h _ rfl rfl (ix2 k q) (fun b hb => match b, hb with
    | ⟨0, _⟩, _ => rfl
    | ⟨1, _⟩, hb => absurd rfl hb) (by show q.val + 64 = 64 + q.val; omega)

/-! ## The matrix unit's product at an index -/

/-- The body's product: [4000,256] by [256,128], contracting the 256. -/
abbrev dotK := dot_S4000x256_S256x128_S4000x128_1_0_0_1_n_n

theorem lhsK_0 (i : S4000x128.Idx) (s : dotK.contr.Idx) : (dotK.lhsIdx i s 0).val = (i 0).val := by
  unfold DotDims.lhsIdx
  rw [dif_neg (show ¬(0 : Fin S4000x256.rank) ∈ dotK.lhsBatch by decide), dif_pos (show (0 : Fin S4000x256.rank) ∈ dotK.lhsNonContracting by decide)]
  rfl
theorem lhsK_1 (i : S4000x128.Idx) (s : dotK.contr.Idx) : (dotK.lhsIdx i s 1).val = (s ⟨0, by decide⟩).val :=
  dotK.lhsIdx_val_of_single rfl i s
theorem rhsK_0 (i : S4000x128.Idx) (s : dotK.contr.Idx) : (dotK.rhsIdx i s 0).val = (s ⟨0, by decide⟩).val :=
  dotK.rhsIdx_val_of_single rfl i s
theorem rhsK_1 (i : S4000x128.Idx) (s : dotK.contr.Idx) : (dotK.rhsIdx i s 1).val = (i 1).val := by
  unfold DotDims.rhsIdx
  rw [dif_neg (show ¬(1 : Fin S256x128.rank) ∈ dotK.rhsBatch by decide), dif_pos (show (1 : Fin S256x128.rank) ∈ dotK.rhsNonContracting by decide)]
  rfl

/-- Into a zero accumulator, entry (p, r) of the product is row p of the left operand against column r of the right. -/
theorem mm_apply (A : FVec Ideal S4000x256 .bf16) (P : FVec Ideal S256x128 .bf16) (p : Fin 4000) (r : Fin 128) :
    matmul dotK none A P (constant S4000x128 .f32 0x00000000#32) (ix2 p r) = ∑ k : Fin 256, A (ix2 p k) * P (ix2 k r) := by
  show FloatOps.matmul dotK none A P (constant S4000x128 .f32 0x00000000#32) (ix2 p r) = _
  rw [Ideal.matmul_constant_zero_apply, ← Equiv.sum_comp (ValueIdx.contrEquiv1 dotK 256 rfl rfl).symm]
  refine Finset.sum_congr rfl fun k _ => ?_
  have hk := ValueIdx.contrEquiv1_symm_val dotK 256 rfl rfl k
  have el : dotK.lhsIdx (ix2 p r) ((ValueIdx.contrEquiv1 dotK 256 rfl rfl).symm k) = ix2 p k := funext fun a => Fin.ext (by
    match a with
    | ⟨0, _⟩ => exact lhsK_0 _ _
    | ⟨1, _⟩ => exact (lhsK_1 _ _).trans hk)
  have er : dotK.rhsIdx (ix2 p r) ((ValueIdx.contrEquiv1 dotK 256 rfl rfl).symm k) = ix2 k r := funext fun a => Fin.ext (by
    match a with
    | ⟨0, _⟩ => exact (rhsK_0 _ _).trans hk
    | ⟨1, _⟩ => exact rhsK_1 _ _)
  rw [el, er]

/-- Row p of [x0 | x1] against column r of P: the first 128 terms read x0, the last 128 read x1. -/
theorem mm_cat_apply (x0 x1 : FVec Ideal S4000x128 .bf16) (h : Shape.Concatenates [S4000x128, S4000x128] S4000x256 1)
    (P : FVec Ideal S256x128 .bf16) (p : Fin 4000) (r : Fin 128) :
    matmul dotK none (concatenate S4000x256 1 [⟨S4000x128, x0⟩, ⟨S4000x128, x1⟩] h) P (constant S4000x128 .f32 0x00000000#32) (ix2 p r)
      = (∑ k : Fin 128, x0 (ix2 p k) * P (ix2 (⟨k.val, by have := k.isLt; omega⟩ : Fin 256) r))
        + ∑ k : Fin 128, x1 (ix2 p k) * P (ix2 (⟨128 + k.val, by have := k.isLt; omega⟩ : Fin 256) r) := by
  rw [mm_apply, sum_halves]
  refine congrArg₂ (· + ·) (Finset.sum_congr rfl fun k _ => ?_) (Finset.sum_congr rfl fun k _ => ?_)
  · rw [cat_left]
  · rw [cat_right]

/-- Columns 0..63 of a [4000,128] block. -/
theorem slice_lo (v : FVec Ideal S4000x128 .f32) (h : S4000x128.Slices ![0, 0] S4000x64) (p : Fin 4000) (q : Fin 64) :
    extractStridedSlice S4000x64 ![0, 0] v h (ix2 p q) = v (ix2 p (⟨q.val, by have := q.isLt; omega⟩ : Fin 128)) :=
  extractStridedSlice_apply ![0, 0] v h (ix2 p q) (ix2 p (⟨q.val, by have := q.isLt; omega⟩ : Fin 128)) (fun a => match a with
    | ⟨0, _⟩ => by show p.val = 0 + p.val; omega
    | ⟨1, _⟩ => by show q.val = 0 + q.val; omega)

/-- Columns 64..127 of a [4000,128] block. -/
theorem slice_hi (v : FVec Ideal S4000x128 .f32) (h : S4000x128.Slices ![0, 64] S4000x64) (p : Fin 4000) (q : Fin 64) :
    extractStridedSlice S4000x64 ![0, 64] v h (ix2 p q) = v (ix2 p (⟨64 + q.val, by have := q.isLt; omega⟩ : Fin 128)) :=
  extractStridedSlice_apply ![0, 64] v h (ix2 p q) (ix2 p (⟨64 + q.val, by have := q.isLt; omega⟩ : Fin 128)) (fun a => match a with
    | ⟨0, _⟩ => by show p.val = 0 + p.val; omega
    | ⟨1, _⟩ => by show 64 + q.val = 64 + q.val; omega)

/-! ## The body's value at an index -/

/-- Row p of [x0 | x1] against column q of a 256-row weight: the first 128 rows of the weight meet x0, the last 128 meet x1. -/
def rowDot (x0 x1 : S4000x128.Idx → EReal) (W : S256x64.Idx → EReal) (p : Fin 4000) (q : Fin 64) : EReal :=
  (∑ k : Fin 128, x0 (ix2 p k) * W (ix2 (⟨k.val, by have := k.isLt; omega⟩ : Fin 256) q))
    + ∑ k : Fin 128, x1 (ix2 p k) * W (ix2 (⟨128 + k.val, by have := k.isLt; omega⟩ : Fin 256) q)

/-- What the body stores for a block, entry by entry: noise times the exponential of the log deviation, plus the mean,
    both read off one product with the packed weight [Wm | Ws]. -/
theorem pay4_apply (x0 x1 : Vec Ideal S4000x128 .bf16) (Wm Ws : FVec Ideal S256x64 .f32)
    (h : Shape.Concatenates [S256x64, S256x64] S256x128 1) (n : Vec Ideal S4000x64 .f32) (p : Fin 4000) (q : Fin 64) :
    k1_pay4 (F := Ideal) x0 x1 (concatenate S256x128 1 [⟨S256x64, Wm⟩, ⟨S256x64, Ws⟩] h) n (ix2 p q)
      = n (ix2 p q) * Ideal.exp (rowDot x0 x1 Ws p q) + rowDot x0 x1 Wm p q := by
  unfold k1_pay4 k1_pay1 k1_pay2 k1_pay3
  show n (ix2 p q) * Ideal.exp (extractStridedSlice (s := S4000x128) S4000x64 ![0, 64] _ _ (ix2 p q)) + extractStridedSlice (s := S4000x128) S4000x64 ![0, 0] _ _ (ix2 p q) = _
  rw [slice_hi, slice_lo, mm_cat_apply, mm_cat_apply]
  unfold rowDot
  simp only [wcat_left, wcat_right, shapeCast_self]

/-- The other output's block is the same formula with the two hidden blocks exchanged. -/
theorem pay5_eq (x0 x1 : Vec Ideal S4000x128 .bf16) (P : Vec Ideal S256x128 .bf16) (n : Vec Ideal S4000x64 .f32) :
    k1_pay5 (F := Ideal) x0 x1 P n = k1_pay4 (F := Ideal) x1 x0 P n := rfl

/-! ## The reference's formula at an index -/

theorem top_apply (W : FVec Ideal S256x64 .f32) (k : Fin 128) (q : Fin 64) :
    top W (ix2 k q) = W (ix2 (⟨k.val, by have := k.isLt; omega⟩ : Fin 256) q) :=
  extractStridedSlice_apply ![0, 0] W _ (ix2 k q) (ix2 (⟨k.val, by have := k.isLt; omega⟩ : Fin 256) q) (fun a => match a with
    | ⟨0, _⟩ => by show k.val = 0 + k.val; omega
    | ⟨1, _⟩ => by show q.val = 0 + q.val; omega)

theorem bot_apply (W : FVec Ideal S256x64 .f32) (k : Fin 128) (q : Fin 64) :
    bot W (ix2 k q) = W (ix2 (⟨128 + k.val, by have := k.isLt; omega⟩ : Fin 256) q) :=
  extractStridedSlice_apply ![128, 0] W _ (ix2 k q) (ix2 (⟨128 + k.val, by have := k.isLt; omega⟩ : Fin 256) q) (fun a => match a with
    | ⟨0, _⟩ => by show 128 + k.val = 128 + k.val; omega
    | ⟨1, _⟩ => by show q.val = 0 + q.val; omega)

/-- The reference's product of 500000 rows by a [128,64] weight, entry by entry. -/
theorem dotE_apply (a : FVec Ideal S500000x128 .bf16) (b : FVec Ideal Cert.ReferenceIdeal.S128x64 .f32) (r : Fin 500000) (q : Fin 64) :
    Host.dotGeneral (F := Ideal) (φ₁ := .bf16) (φ₂ := .f32) dotE none a b (ix2 r q) = ∑ k : Fin 128, a (ix2 r k) * b (ix2 k q) := by
  show FloatOps.dotGeneral dotE none .single a b (ix2 r q) = _
  rw [Ideal.dotGeneral_apply, ← Equiv.sum_comp (ValueIdx.contrEquiv1 dotE 128 rfl rfl).symm]
  refine Finset.sum_congr rfl fun k _ => ?_
  have hk := ValueIdx.contrEquiv1_symm_val dotE 128 rfl rfl k
  have el : dotE.lhsIdx (ix2 r q) ((ValueIdx.contrEquiv1 dotE 128 rfl rfl).symm k) = ix2 r k := funext fun a => Fin.ext (by
    match a with
    | ⟨0, _⟩ => exact Cert.ReferenceIdeal.Read.lhs_main_v40_0 _ _
    | ⟨1, _⟩ => exact (Cert.ReferenceIdeal.Read.lhs_main_v40_1 _ _).trans hk)
  have er : dotE.rhsIdx (ix2 r q) ((ValueIdx.contrEquiv1 dotE 128 rfl rfl).symm k) = ix2 k q := funext fun a => Fin.ext (by
    match a with
    | ⟨0, _⟩ => exact (Cert.ReferenceIdeal.Read.rhs_main_v40_0 _ _).trans hk
    | ⟨1, _⟩ => exact Cert.ReferenceIdeal.Read.rhs_main_v40_1 _ _)
  rw [el, er]

/-- Row r of a against the top half of a 256-row weight plus row r of b against its bottom half, at column q. -/
def refRow (a b : S500000x128.Idx → EReal) (W : S256x64.Idx → EReal) (r : Fin 500000) (q : Fin 64) : EReal :=
  (∑ k : Fin 128, a (ix2 r k) * W (ix2 (⟨k.val, by have := k.isLt; omega⟩ : Fin 256) q))
    + ∑ k : Fin 128, b (ix2 r k) * W (ix2 (⟨128 + k.val, by have := k.isLt; omega⟩ : Fin 256) q)

/-- The reference's edge output: noise times the exponential of the log deviation, plus the mean, each the sum of two
    products with the halves of its weight. -/
def edgeOut (a b : FVec Ideal S500000x128 .bf16) (Wm Ws : FVec Ideal S256x64 .f32) (n : FVec Ideal S500000x64 .f32) :
    FVec Ideal S500000x64 .f32 :=
  addf (mulf n (Host.exp (F := Ideal) (addf (Host.dotGeneral (F := Ideal) (φ₁ := .bf16) (φ₂ := .f32) dotE none a (top Ws)) (Host.dotGeneral (F := Ideal) (φ₁ := .bf16) (φ₂ := .f32) dotE none b (bot Ws)))))
    (addf (Host.dotGeneral (F := Ideal) (φ₁ := .bf16) (φ₂ := .f32) dotE none a (top Wm)) (Host.dotGeneral (F := Ideal) (φ₁ := .bf16) (φ₂ := .f32) dotE none b (bot Wm)))

theorem edgeOut_apply (a b : FVec Ideal S500000x128 .bf16) (Wm Ws : FVec Ideal S256x64 .f32) (n : FVec Ideal S500000x64 .f32)
    (r : Fin 500000) (q : Fin 64) :
    edgeOut a b Wm Ws n (ix2 r q) = n (ix2 r q) * Ideal.exp (refRow a b Ws r q) + refRow a b Wm r q := by
  show n (ix2 r q) * Ideal.exp (Host.dotGeneral (F := Ideal) (φ₁ := .bf16) (φ₂ := .f32) dotE none a (top Ws) (ix2 r q) + Host.dotGeneral (F := Ideal) (φ₁ := .bf16) (φ₂ := .f32) dotE none b (bot Ws) (ix2 r q))
      + (Host.dotGeneral (F := Ideal) (φ₁ := .bf16) (φ₂ := .f32) dotE none a (top Wm) (ix2 r q) + Host.dotGeneral (F := Ideal) (φ₁ := .bf16) (φ₂ := .f32) dotE none b (bot Wm) (ix2 r q)) = _
  rw [dotE_apply, dotE_apply, dotE_apply, dotE_apply]
  unfold refRow
  simp only [top_apply, bot_apply]

/-- A block's entry (p, q) is the reference's entry (r, q) as soon as row p of each block is row r of its array. -/
theorem block_apply (a b : FVec Ideal S500000x128 .bf16) (Wm Ws : FVec Ideal S256x64 .f32) (n : FVec Ideal S500000x64 .f32)
    (h : Shape.Concatenates [S256x64, S256x64] S256x128 1)
    (x0 x1 : Vec Ideal S4000x128 .bf16) (P : Vec Ideal S256x128 .bf16) (nb : Vec Ideal S4000x64 .f32)
    (hP : P = concatenate S256x128 1 [⟨S256x64, Wm⟩, ⟨S256x64, Ws⟩] h) (p : Fin 4000) (q : Fin 64) (r : Fin 500000)
    (h0 : ∀ k : Fin 128, x0 (ix2 p k) = a (ix2 r k)) (h1 : ∀ k : Fin 128, x1 (ix2 p k) = b (ix2 r k))
    (hn : nb (ix2 p q) = n (ix2 r q)) :
    k1_pay4 (F := Ideal) x0 x1 P nb (ix2 p q) = edgeOut a b Wm Ws n (ix2 r q) := by
  subst hP
  rw [pay4_apply, edgeOut_apply, hn]
  unfold rowDot refRow
  simp only [h0, h1]

/-! ## From blocks to the arrays -/

theorem hz : (![0, 0] : Fin 2 → Nat) = fun _ => 0 := funext fun a => by fin_cases a <;> rfl

/-- The index maps over the 125 grid points: every row-blocked window sits at block (t, 0), the weight at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Block t of the first hidden array is its rows 4000 t .. 4000 t + 3999. -/
theorem iblk_hs (V : VT) (c : Dev nD) (t : Fin cfg1.N) (y : S4000x128.Idx) (i : S500000x128.Idx)
    (h0 : (i 0).val = t.val * 4000 + (y 0).val) (h1 : (i 1).val = (y 1).val) :
    (iblk1 (F := Ideal) V c 0 t : Vec Ideal S4000x128 .bf16) y = (V c main_v30 : S500000x128.Idx → EReal) i := by
  obtain ⟨e0, e1, -⟩ := idx_facts t
  unfold iblk1
  rw [View.read_apply]
  show V c main_v30 _ = V c main_v30 i
  refine congrArg _ (funext fun a => Fin.ext ?_)
  match a with
  | ⟨0, _⟩ => show win1_0.index t (0 : Fin 2) * 4000 + 1 * (y 0).val = (i 0).val; rw [e0, h0]; omega
  | ⟨1, _⟩ => show win1_0.index t (1 : Fin 2) * 128 + 1 * (y 1).val = (i 1).val; rw [e1, h1]; omega

/-- Block t of the second hidden array is its rows 4000 t .. 4000 t + 3999. -/
theorem iblk_hd (V : VT) (c : Dev nD) (t : Fin cfg1.N) (y : S4000x128.Idx) (i : S500000x128.Idx)
    (h0 : (i 0).val = t.val * 4000 + (y 0).val) (h1 : (i 1).val = (y 1).val) :
    (iblk1 (F := Ideal) V c 1 t : Vec Ideal S4000x128 .bf16) y = (V c main_v39 : S500000x128.Idx → EReal) i := by
  obtain ⟨-, -, e0, e1, -⟩ := idx_facts t
  unfold iblk1
  rw [View.read_apply]
  show V c main_v39 _ = V c main_v39 i
  refine congrArg _ (funext fun a => Fin.ext ?_)
  match a with
  | ⟨0, _⟩ => show win1_1.index t (0 : Fin 2) * 4000 + 1 * (y 0).val = (i 0).val; rw [e0, h0]; omega
  | ⟨1, _⟩ => show win1_1.index t (1 : Fin 2) * 128 + 1 * (y 1).val = (i 1).val; rw [e1, h1]; omega

/-- The weight's one block is the whole packed weight at every grid point. -/
theorem iblk_w (V : VT) (c : Dev nD) (t : Fin cfg1.N) :
    (iblk1 (F := Ideal) V c 2 t : Vec Ideal S256x128 .bf16) = (V c main_v21 : S256x128.Idx → EReal) := by
  obtain ⟨-, -, -, -, e0, e1, -⟩ := idx_facts t
  funext y
  unfold iblk1
  rw [View.read_apply]
  show V c main_v21 _ = V c main_v21 y
  refine congrArg _ (funext fun a => Fin.ext ?_)
  match a with
  | ⟨0, _⟩ => show win1_2.index t (0 : Fin 2) * 256 + 1 * (y 0).val = (y 0).val; rw [e0]; omega
  | ⟨1, _⟩ => show win1_2.index t (1 : Fin 2) * 128 + 1 * (y 1).val = (y 1).val; rw [e1]; omega

/-- Block t of the first noise array is its rows 4000 t .. 4000 t + 3999. -/
theorem iblk_n6 (V : VT) (c : Dev nD) (t : Fin cfg1.N) (y : S4000x64.Idx) (i : S500000x64.Idx)
    (h0 : (i 0).val = t.val * 4000 + (y 0).val) (h1 : (i 1).val = (y 1).val) :
    (iblk1 (F := Ideal) V c 3 t : Vec Ideal S4000x64 .f32) y = (V c main_arg6 : S500000x64.Idx → EReal) i := by
  obtain ⟨-, -, -, -, -, -, e0, e1, -⟩ := idx_facts t
  unfold iblk1
  rw [View.read_apply]
  show V c main_arg6 _ = V c main_arg6 i
  refine congrArg _ (funext fun a => Fin.ext ?_)
  match a with
  | ⟨0, _⟩ => show win1_3.index t (0 : Fin 2) * 4000 + 1 * (y 0).val = (i 0).val; rw [e0, h0]; omega
  | ⟨1, _⟩ => show win1_3.index t (1 : Fin 2) * 64 + 1 * (y 1).val = (i 1).val; rw [e1, h1]; omega

/-- Block t of the second noise array is its rows 4000 t .. 4000 t + 3999. -/
theorem iblk_n7 (V : VT) (c : Dev nD) (t : Fin cfg1.N) (y : S4000x64.Idx) (i : S500000x64.Idx)
    (h0 : (i 0).val = t.val * 4000 + (y 0).val) (h1 : (i 1).val = (y 1).val) :
    (iblk1 (F := Ideal) V c 4 t : Vec Ideal S4000x64 .f32) y = (V c main_arg7 : S500000x64.Idx → EReal) i := by
  obtain ⟨-, -, -, -, -, -, -, -, e0, e1, -⟩ := idx_facts t
  unfold iblk1
  rw [View.read_apply]
  show V c main_arg7 _ = V c main_arg7 i
  refine congrArg _ (funext fun a => Fin.ext ?_)
  match a with
  | ⟨0, _⟩ => show win1_4.index t (0 : Fin 2) * 4000 + 1 * (y 0).val = (i 0).val; rw [e0, h0]; omega
  | ⟨1, _⟩ => show win1_4.index t (1 : Fin 2) * 64 + 1 * (y 1).val = (i 1).val; rw [e1, h1]; omega

/-- What grid point t writes back to the first output is block t of the reference's formula. -/
theorem flushed5_eq (V : VT) (c : Dev nD) (Wm Ws : FVec Ideal S256x64 .f32)
    (hw : V c main_v21 = concatenate S256x128 1 [⟨S256x64, Wm⟩, ⟨S256x64, Ws⟩] Cert.KernelIdeal.Facts₀.concatenates_S256x64_S256x64_S256x128_d1)
    (t : Fin cfg1.N) :
    (dat1 (F := Ideal) V c).flushed 5 t
      = ((cfg1.win 5).blk t).view.read (Elt Ideal) (edgeOut (V c main_v30) (V c main_v39) Wm Ws (V c main_arg6)) := by
  show (cfg1.win 5).cut (grid1.coords t) ((dat1 (F := Ideal) V c).after 5 t) = _
  rw [after1_5]
  unfold out1_5
  rw [View.canon_unit_zero hz]
  simp only [View.ld_unit_zero (S := S4000x128) hz, View.ld_unit_zero (S := S256x128) hz, View.ld_unit_zero (S := S4000x64) hz]
  have hN : cfg1.N = 125 := N_1
  have ht : t.val < 125 := hN ▸ t.isLt
  obtain ⟨-, -, -, -, -, -, -, -, -, -, e0, e1, -⟩ := idx_facts t
  funext j
  obtain ⟨p, q, rfl⟩ : ∃ (p : Fin 4000) (q : Fin 64), j = ix2 p q := ⟨j 0, j 1, eq_ix2 j⟩
  rw [View.read_apply]
  have hi : ((cfg1.win 5).blk t).view.emb (ix2 p q) = ix2 (⟨t.val * 4000 + p.val, by have := p.isLt; omega⟩ : Fin 500000) q :=
    funext fun a => Fin.ext (by
      match a with
      | ⟨0, _⟩ => show win1_5.index t (0 : Fin 2) * 4000 + 1 * p.val = t.val * 4000 + p.val; rw [e0]; omega
      | ⟨1, _⟩ => show win1_5.index t (1 : Fin 2) * 64 + 1 * q.val = q.val; rw [e1]; omega)
  show k1_pay4 (F := Ideal) (iblk1 V c 0 t) (iblk1 V c 1 t) (iblk1 V c 2 t) (iblk1 V c 3 t) (ix2 p q)
      = edgeOut (V c main_v30) (V c main_v39) Wm Ws (V c main_arg6) (((cfg1.win 5).blk t).view.emb (ix2 p q))
  rw [hi]
  exact block_apply (V c main_v30) (V c main_v39) Wm Ws (V c main_arg6) _ (iblk1 V c 0 t) (iblk1 V c 1 t) (iblk1 V c 2 t) (iblk1 V c 3 t)
    ((iblk_w V c t).trans hw) p q _ (fun k => iblk_hs V c t _ _ rfl rfl) (fun k => iblk_hd V c t _ _ rfl rfl) (iblk_n6 V c t _ _ rfl rfl)

/-- What grid point t writes back to the second output is block t of the formula with the two hidden arrays exchanged. -/
theorem flushed6_eq (V : VT) (c : Dev nD) (Wm Ws : FVec Ideal S256x64 .f32)
    (hw : V c main_v21 = concatenate S256x128 1 [⟨S256x64, Wm⟩, ⟨S256x64, Ws⟩] Cert.KernelIdeal.Facts₀.concatenates_S256x64_S256x64_S256x128_d1)
    (t : Fin cfg1.N) :
    (dat1 (F := Ideal) V c).flushed 6 t
      = ((cfg1.win 6).blk t).view.read (Elt Ideal) (edgeOut (V c main_v39) (V c main_v30) Wm Ws (V c main_arg7)) := by
  show (cfg1.win 6).cut (grid1.coords t) ((dat1 (F := Ideal) V c).after 6 t) = _
  rw [after1_6]
  unfold out1_6
  rw [View.canon_unit_zero hz]
  simp only [View.ld_unit_zero (S := S4000x128) hz, View.ld_unit_zero (S := S256x128) hz, View.ld_unit_zero (S := S4000x64) hz]
  have hN : cfg1.N = 125 := N_1
  have ht : t.val < 125 := hN ▸ t.isLt
  obtain ⟨-, -, -, -, -, -, -, -, -, -, -, -, e0, e1⟩ := idx_facts t
  funext j
  obtain ⟨p, q, rfl⟩ : ∃ (p : Fin 4000) (q : Fin 64), j = ix2 p q := ⟨j 0, j 1, eq_ix2 j⟩
  rw [View.read_apply]
  have hi : ((cfg1.win 6).blk t).view.emb (ix2 p q) = ix2 (⟨t.val * 4000 + p.val, by have := p.isLt; omega⟩ : Fin 500000) q :=
    funext fun a => Fin.ext (by
      match a with
      | ⟨0, _⟩ => show win1_6.index t (0 : Fin 2) * 4000 + 1 * p.val = t.val * 4000 + p.val; rw [e0]; omega
      | ⟨1, _⟩ => show win1_6.index t (1 : Fin 2) * 64 + 1 * q.val = q.val; rw [e1]; omega)
  show k1_pay5 (F := Ideal) (iblk1 V c 0 t) (iblk1 V c 1 t) (iblk1 V c 2 t) (iblk1 V c 4 t) (ix2 p q)
      = edgeOut (V c main_v39) (V c main_v30) Wm Ws (V c main_arg7) (((cfg1.win 6).blk t).view.emb (ix2 p q))
  rw [hi, pay5_eq]
  exact block_apply (V c main_v39) (V c main_v30) Wm Ws (V c main_arg7) _ (iblk1 V c 1 t) (iblk1 V c 0 t) (iblk1 V c 2 t) (iblk1 V c 4 t)
    ((iblk_w V c t).trans hw) p q _ (fun k => iblk_hd V c t _ _ rfl rfl) (fun k => iblk_hs V c t _ _ rfl rfl) (iblk_n7 V c t _ _ rfl rfl)

/-- An index of the first output is in grid point t's block iff each coordinate is in the block's range on its axis. -/
theorem mem_blk5 (t : Fin cfg1.N) (i : S500000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v40_0).slice (win1_5.rect t)).set ↔ _
  rw [View.set_slice_whole, Rect.mem_set_unit]
  exact Iff.rfl

/-- The same for the second output. -/
theorem mem_blk6 (t : Fin cfg1.N) (i : S500000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v40_1).slice (win1_6.rect t)).set ↔ _
  rw [View.set_slice_whole, Rect.mem_set_unit]
  exact Iff.rfl

/-- Row r of the first output lies in the block of grid point r / 4000: the 125 blocks tile the array. -/
theorem cover5 (i : S500000x64.Idx) : ∃ t : Fin cfg1.N, (cfg1.win 5).flush t = true ∧ i ∈ ((cfg1.win 5).blk t).view.set := by
  have hi0 : (i 0).val < 500000 := (i 0).isLt
  have hi1 : (i 1).val < 64 := (i 1).isLt
  have hN : cfg1.N = 125 := N_1
  obtain ⟨t, ht⟩ : ∃ t : Fin cfg1.N, t.val = (i 0).val / 4000 := ⟨⟨(i 0).val / 4000, by rw [hN]; omega⟩, rfl⟩
  obtain ⟨-, -, -, -, -, -, -, -, -, -, e0, e1, -⟩ := idx_facts t
  refine ⟨t, flush1_5 t, ?_⟩
  rw [mem_blk5]
  intro a
  match a with
  | ⟨0, _⟩ => show win1_5.index t (0 : Fin 2) * 4000 ≤ (i 0).val ∧ (i 0).val < win1_5.index t (0 : Fin 2) * 4000 + 4000; rw [e0, ht]; omega
  | ⟨1, _⟩ => show win1_5.index t (1 : Fin 2) * 64 ≤ (i 1).val ∧ (i 1).val < win1_5.index t (1 : Fin 2) * 64 + 64; rw [e1]; omega

/-- The same for the second output. -/
theorem cover6 (i : S500000x64.Idx) : ∃ t : Fin cfg1.N, (cfg1.win 6).flush t = true ∧ i ∈ ((cfg1.win 6).blk t).view.set := by
  have hi0 : (i 0).val < 500000 := (i 0).isLt
  have hi1 : (i 1).val < 64 := (i 1).isLt
  have hN : cfg1.N = 125 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, e0, e1⟩ := idx_facts t
  refine ⟨t, flush1_6 t, ?_⟩
  rw [mem_blk6]
  intro a
  match a with
  | ⟨0, _⟩ => show win1_6.index t (0 : Fin 2) * 4000 ≤ (i 0).val ∧ (i 0).val < win1_6.index t (0 : Fin 2) * 4000 + 4000; rw [e0, ht]; omega
  | ⟨1, _⟩ => show win1_6.index t (1 : Fin 2) * 64 ≤ (i 1).val ∧ (i 1).val < win1_6.index t (1 : Fin 2) * 64 + 64; rw [e1]; omega

/-! ## The two output arrays after the launch -/

theorem arr1_5 (V : VT) (c : Dev nD) (Wm Ws : FVec Ideal S256x64 .f32)
    (hw : V c main_v21 = concatenate S256x128 1 [⟨S256x64, Wm⟩, ⟨S256x64, Ws⟩] Cert.KernelIdeal.Facts₀.concatenates_S256x64_S256x64_S256x128_d1) :
    (dat1 (F := Ideal) V c).arrAt 5 cfg1.N
      = addf (mulf (V c main_arg6 : FVec Ideal S500000x64 .f32) (Host.exp (F := Ideal) (addf (Host.dotGeneral (F := Ideal) (φ₁ := .bf16) (φ₂ := .f32) dotE none (V c main_v30 : FVec Ideal S500000x128 .bf16) (top Ws)) (Host.dotGeneral (F := Ideal) (φ₁ := .bf16) (φ₂ := .f32) dotE none (V c main_v39 : FVec Ideal S500000x128 .bf16) (bot Ws)))))
          (addf (Host.dotGeneral (F := Ideal) (φ₁ := .bf16) (φ₂ := .f32) dotE none (V c main_v30 : FVec Ideal S500000x128 .bf16) (top Wm)) (Host.dotGeneral (F := Ideal) (φ₁ := .bf16) (φ₂ := .f32) dotE none (V c main_v39 : FVec Ideal S500000x128 .bf16) (bot Wm))) :=
  (dat1 (F := Ideal) V c).arrAt_eq_of_cover 5 (edgeOut (V c main_v30) (V c main_v39) Wm Ws (V c main_arg6))
    (fun t _ => flushed5_eq V c Wm Ws hw t) cover5

theorem arr1_6 (V : VT) (c : Dev nD) (Wm Ws : FVec Ideal S256x64 .f32)
    (hw : V c main_v21 = concatenate S256x128 1 [⟨S256x64, Wm⟩, ⟨S256x64, Ws⟩] Cert.KernelIdeal.Facts₀.concatenates_S256x64_S256x64_S256x128_d1) :
    (dat1 (F := Ideal) V c).arrAt 6 cfg1.N
      = addf (mulf (V c main_arg7 : FVec Ideal S500000x64 .f32) (Host.exp (F := Ideal) (addf (Host.dotGeneral (F := Ideal) (φ₁ := .bf16) (φ₂ := .f32) dotE none (V c main_v39 : FVec Ideal S500000x128 .bf16) (top Ws)) (Host.dotGeneral (F := Ideal) (φ₁ := .bf16) (φ₂ := .f32) dotE none (V c main_v30 : FVec Ideal S500000x128 .bf16) (bot Ws)))))
          (addf (Host.dotGeneral (F := Ideal) (φ₁ := .bf16) (φ₂ := .f32) dotE none (V c main_v39 : FVec Ideal S500000x128 .bf16) (top Wm)) (Host.dotGeneral (F := Ideal) (φ₁ := .bf16) (φ₂ := .f32) dotE none (V c main_v30 : FVec Ideal S500000x128 .bf16) (bot Wm))) :=
  (dat1 (F := Ideal) V c).arrAt_eq_of_cover 6 (edgeOut (V c main_v39) (V c main_v30) Wm Ws (V c main_arg7))
    (fun t _ => flushed6_eq V c Wm Ws hw t) cover6

end Cert.KernelIdeal.RegionEdge

end
-- ==== Proof.StageEdges.lean ====
/-
  After the second launch: the incoming and the outgoing edge embedding are the reference's stage functions of the
  launch arguments; the hidden rows, the packed weight and the arguments still to be read pass through unchanged.
-/
import proofs.«103695_j56556129354623_2_alg».proof.Proof.Gen.KernelIdeal.Frame
import proofs.«103695_j56556129354623_2_alg».proof.Proof.Gen.ReferenceIdeal.Read
import proofs.«103695_j56556129354623_2_alg».proof.Proof.StageHidden
import proofs.«103695_j56556129354623_2_alg».proof.Proof.StageEdgeRows
import proofs.«103695_j56556129354623_2_alg».proof.Proof.RegionEdge
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-! ## After the second launch: the two edge embeddings -/

theorem W3_v19 : W3 m ρ c (Proc.devRef .tc main_v19) = val_main_v17 (F := Ideal) (A0 m c) (A1 m c) (A4 m c) (A9 m c) :=
  (W3_of_ne m ρ c main_v19 (by decide)).trans (W2_v19 m ρ c)
theorem W3_v21 : W3 m ρ c (Proc.devRef .tc main_v21) = packed m c :=
  (W3_arr m ρ c 2).trans (((dat1 (V2 m ρ) c).arrAt_in 2 rfl _).trans ((A_eq1 (V2 m ρ) c 2).trans (W2_v21 m ρ c)))
theorem W3_arg5 : W3 m ρ c (Proc.devRef .tc main_arg5) = (A5 m c) := (W3_of_ne m ρ c main_arg5 (by decide)).trans (W2_arg5 m ρ c)
theorem W3_arg8 : W3 m ρ c (Proc.devRef .tc main_arg8) = (A8 m c) := (W3_of_ne m ρ c main_arg8 (by decide)).trans (W2_arg8 m ρ c)
theorem W3_arg11 : W3 m ρ c (Proc.devRef .tc main_arg11) = (A11 m c) := (W3_of_ne m ρ c main_arg11 (by decide)).trans (W2_arg11 m ρ c)

set_option maxHeartbeats 400000 in
theorem W3_v40_0 : W3 m ρ c (Proc.devRef .tc main_v40_0) = val_main_v54 (F := Ideal) (A0 m c) (A1 m c) (A2 m c) (A3 m c) (A4 m c) (A6 m c) (A9 m c) (A10 m c) := by
  refine (W3_arr m ρ c 5).trans ((Cert.KernelIdeal.RegionEdge.arr1_5 (V2 m ρ) c (A2 m c) (A3 m c) (W2_v21 m ρ c)).trans ?_)
  dsimp only [V2]
  rw [W2_arg6, W2_v30, W2_v39]
  simp only [dot_format]
  unfold val_main_v54 val_main_v53 val_main_v52 val_main_v48 val_main_v46 val_main_v47 val_main_v42 val_main_v40 val_main_v41 val_main_v18 val_main_v19 val_main_v20 val_main_v21
  rfl

set_option maxHeartbeats 400000 in
theorem W3_v40_1 : W3 m ρ c (Proc.devRef .tc main_v40_1) = val_main_v57 (F := Ideal) (A0 m c) (A1 m c) (A2 m c) (A3 m c) (A4 m c) (A7 m c) (A9 m c) (A10 m c) := by
  refine (W3_arr m ρ c 6).trans ((Cert.KernelIdeal.RegionEdge.arr1_6 (V2 m ρ) c (A2 m c) (A3 m c) (W2_v21 m ρ c)).trans ?_)
  dsimp only [V2]
  rw [W2_arg7, W2_v30, W2_v39]
  simp only [dot_format]
  unfold val_main_v57 val_main_v56 val_main_v55 val_main_v51 val_main_v49 val_main_v50 val_main_v45 val_main_v43 val_main_v44 val_main_v18 val_main_v19 val_main_v20 val_main_v21
  rfl

end Cert.KernelIdeal.Stages

end
-- ==== Proof.StageNodeRows.lean ====
/-
  After the second host stretch: the hidden rows gathered at the two ends of every bidirectional edge and the edge
  values as a column, as the reference's stage functions of the launch arguments.
-/
import proofs.«103695_j56556129354623_2_alg».proof.Proof.Gen.KernelIdeal.Frame
import proofs.«103695_j56556129354623_2_alg».proof.Proof.Gen.ReferenceIdeal.Read
import proofs.«103695_j56556129354623_2_alg».proof.Proof.StageEdges
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-! ## After the second host stretch: the gathered rows of the bidirectional edges and their values as a column -/

set_option maxHeartbeats 400000 in
theorem W4_v49 : W4 m ρ c (Proc.devRef .tc main_v49) = val_main_v66 (F := Ideal) (A0 m c) (A1 m c) (A4 m c) (A9 m c) (A11 m c) := by
  show StableHlo.after hostOps2 (W3 m ρ c) (Proc.devRef .tc main_v49) = _
  after_results_simp
  rw [W3_v19, W3_arg11]
  unfold val_main_v66
  exact gather10_congr rfl rfl

set_option maxHeartbeats 400000 in
theorem W4_v58 : W4 m ρ c (Proc.devRef .tc main_v58) = val_main_v75 (F := Ideal) (A0 m c) (A1 m c) (A4 m c) (A9 m c) (A11 m c) := by
  show StableHlo.after hostOps2 (W3 m ρ c) (Proc.devRef .tc main_v58) = _
  after_results_simp
  rw [W3_v19, W3_arg11]
  unfold val_main_v75
  exact gather10_congr rfl rfl

set_option maxHeartbeats 400000 in
theorem W4_v59 : W4 m ρ c (Proc.devRef .tc main_v59) = val_main_v82 (F := Ideal) (A5 m c) := by
  show StableHlo.after hostOps2 (W3 m ρ c) (Proc.devRef .tc main_v59) = _
  after_results_simp
  rw [W3_arg5]
  rfl

theorem W4_v21 : W4 m ρ c (Proc.devRef .tc main_v21) = packed m c :=
  (StableHlo.after_of_forall_not_mem (b := Proc.devRef .tc main_v21) _ _ (by not_written hostOps2)).trans (W3_v21 m ρ c)
theorem W4_v40_0 : W4 m ρ c (Proc.devRef .tc main_v40_0) = val_main_v54 (F := Ideal) (A0 m c) (A1 m c) (A2 m c) (A3 m c) (A4 m c) (A6 m c) (A9 m c) (A10 m c) :=
  (StableHlo.after_of_forall_not_mem (b := Proc.devRef .tc main_v40_0) _ _ (by not_written hostOps2)).trans (W3_v40_0 m ρ c)
theorem W4_v40_1 : W4 m ρ c (Proc.devRef .tc main_v40_1) = val_main_v57 (F := Ideal) (A0 m c) (A1 m c) (A2 m c) (A3 m c) (A4 m c) (A7 m c) (A9 m c) (A10 m c) :=
  (StableHlo.after_of_forall_not_mem (b := Proc.devRef .tc main_v40_1) _ _ (by not_written hostOps2)).trans (W3_v40_1 m ρ c)
theorem W4_arg8 : W4 m ρ c (Proc.devRef .tc main_arg8) = (A8 m c) :=
  (StableHlo.after_of_forall_not_mem (b := Proc.devRef .tc main_arg8) _ _ (by not_written hostOps2)).trans (W3_arg8 m ρ c)
theorem W4_arg11 : W4 m ρ c (Proc.devRef .tc main_arg11) = (A11 m c) :=
  (StableHlo.after_of_forall_not_mem (b := Proc.devRef .tc main_arg11) _ _ (by not_written hostOps2)).trans (W3_arg11 m ρ c)

end Cert.KernelIdeal.Stages

end
-- ==== Proof.RegionNode.lean ====
/-
  The third launch: for 1000000 bidirectional edges, 4000 at a time, the same packed product; the mean is weighted by
  the edge value and exp(log deviation) by its square. Row by row that is the reference's split-weight form.
-/
import proofs.«103695_j56556129354623_2_alg».proof.Proof.Gen.KernelIdeal.Frame
import proofs.«103695_j56556129354623_2_alg».proof.Proof.Gen.ReferenceIdeal.Read
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionNode

open Idealize.ShloMosaic Idealize.ShloMosaic.TcCoe Idealize.SL.Sem
open Cert.KernelIdeal Cert.KernelIdeal.Gen

/-- A core's buffer contents when a launch is entered. -/
abbrev VT := (c : Dev nD) → (b : Ref sig .tc) → Buf (Elt Ideal) ((c : Thread nD τ).loc b)

abbrev dotE := Cert.ReferenceIdeal.dot_S500000x128_S128x64_S500000x64_1_0_0_1_n_n
abbrev dotB := Cert.ReferenceIdeal.dot_S1000000x128_S128x64_S1000000x64_1_0_0_1_n_n
/-- Rows 0..127 of a 256-row weight. -/
abbrev top (W : FVec Ideal S256x64 .f32) : FVec Ideal Cert.ReferenceIdeal.S128x64 .f32 :=
  extractStridedSlice Cert.ReferenceIdeal.S128x64 ![0, 0] W Cert.ReferenceIdeal.Facts₀.slices_S256x64_S128x64_0_0
/-- Rows 128..255 of a 256-row weight. -/
abbrev bot (W : FVec Ideal S256x64 .f32) : FVec Ideal Cert.ReferenceIdeal.S128x64 .f32 :=
  extractStridedSlice Cert.ReferenceIdeal.S128x64 ![128, 0] W Cert.ReferenceIdeal.Facts₀.slices_S256x64_S128x64_128_0

open ValueIdx (ix2)

/-! ## Operations of the body read at an index -/

theorem zero_off : (![0, 0] : Fin 2 → Nat) = fun _ => 0 := funext fun a => by fin_cases a <;> rfl

/-- A [4000,1] column broadcast along the lanes reads, at (p, q), the column's entry of row p. -/
theorem column_broadcast_apply (x : FVec Ideal S4000x1 .f32) (h : S4000x1.Broadcasts S4000x64) (p : Fin 4000) (q : Fin 64) :
    broadcastTo S4000x64 x h (ix2 p q) = x (ix2 p (0 : Fin 1)) :=
  broadcastTo_apply x h (ix2 p q) (ix2 p (0 : Fin 1)) fun a => match a with
    | ⟨0, _⟩ => by show p.val = if (4000 : Nat) = 1 then 0 else p.val; rw [if_neg (by decide)]
    | ⟨1, _⟩ => by show 0 = if (1 : Nat) = 1 then 0 else q.val; rw [if_pos rfl]

/-- The dimension numbers of the body's product: [4000,256] times [256,128], contracting axis 1 with axis 0. -/
abbrev dotK := dot_S4000x256_S256x128_S4000x128_1_0_0_1_n_n

theorem lhsK_0 (i : S4000x128.Idx) (q : dotK.contr.Idx) : (dotK.lhsIdx i q 0).val = (i 0).val := by
  unfold DotDims.lhsIdx
  rw [dif_neg (show ¬(0 : Fin S4000x256.rank) ∈ dotK.lhsBatch by decide), dif_pos (show (0 : Fin S4000x256.rank) ∈ dotK.lhsNonContracting by decide)]
  rfl
theorem lhsK_1 (i : S4000x128.Idx) (q : dotK.contr.Idx) : (dotK.lhsIdx i q 1).val = (q ⟨0, by decide⟩).val :=
  dotK.lhsIdx_val_of_single rfl i q
theorem rhsK_0 (i : S4000x128.Idx) (q : dotK.contr.Idx) : (dotK.rhsIdx i q 0).val = (q ⟨0, by decide⟩).val :=
  dotK.rhsIdx_val_of_single rfl i q
theorem rhsK_1 (i : S4000x128.Idx) (q : dotK.contr.Idx) : (dotK.rhsIdx i q 1).val = (i 1).val := by
  unfold DotDims.rhsIdx
  rw [dif_neg (show ¬(1 : Fin S256x128.rank) ∈ dotK.rhsBatch by decide), dif_pos (show (1 : Fin S256x128.rank) ∈ dotK.rhsNonContracting by decide)]
  rfl

/-- The product into a zero accumulator, at (p, q): the sum over the 256 contracted positions. -/
theorem matmul_zero_apply (a : FVec Ideal S4000x256 .bf16) (b : FVec Ideal S256x128 .bf16) (p : Fin 4000) (q : Fin 128) :
    matmul dotK none a b (constant S4000x128 .f32 0x00000000#32) (ix2 p q) = ∑ k : Fin 256, a (ix2 p k) * b (ix2 k q) := by
  simp only [matmul]
  rw [Ideal.matmul_constant_zero_apply, ← Equiv.sum_comp (ValueIdx.contrEquiv1 dotK 256 rfl rfl).symm]
  refine Finset.sum_congr rfl fun k _ => ?_
  have hk := ValueIdx.contrEquiv1_symm_val dotK 256 rfl rfl k
  have el : dotK.lhsIdx (ix2 p q) ((ValueIdx.contrEquiv1 dotK 256 rfl rfl).symm k) = ix2 p k := funext fun a => Fin.ext (by
    match a with
    | ⟨0, _⟩ => exact lhsK_0 _ _
    | ⟨1, _⟩ => exact (lhsK_1 _ _).trans hk)
  have er : dotK.rhsIdx (ix2 p q) ((ValueIdx.contrEquiv1 dotK 256 rfl rfl).symm k) = ix2 k q := funext fun a => Fin.ext (by
    match a with
    | ⟨0, _⟩ => exact (rhsK_0 _ _).trans hk
    | ⟨1, _⟩ => exact rhsK_1 _ _)
  rw [el, er]

/-- A sum over 256 positions is the sum over the first 128 plus the sum over the last 128. -/
theorem sum_split (f : Fin 256 → EReal) :
    ∑ k : Fin 256, f k = ∑ k : Fin 128, f ⟨k.val, by omega⟩ + ∑ k : Fin 128, f ⟨128 + k.val, by omega⟩ :=
  Fin.sum_univ_add (a := 128) (b := 128) f

/-- Two [4000,128] blocks side by side: a position among the first 128 lanes reads the left block. -/
theorem beside_left (x y : FVec Ideal S4000x128 .bf16) (h : Shape.Concatenates [S4000x128, S4000x128] S4000x256 1)
    (p : Fin 4000) (k : Fin 128) :
    concatenate S4000x256 1 [⟨S4000x128, x⟩, ⟨S4000x128, y⟩] h (ix2 p (⟨k.val, by omega⟩ : Fin 256)) = x (ix2 p k) :=
  concatenate_pair_apply_left 1 x y h _ rfl (ix2 p k) fun b => match b with
    | ⟨0, _⟩ => rfl
    | ⟨1, _⟩ => rfl

/-- … and a position among the last 128 lanes reads the right block, 128 lanes back. -/
theorem beside_right (x y : FVec Ideal S4000x128 .bf16) (h : Shape.Concatenates [S4000x128, S4000x128] S4000x256 1)
    (p : Fin 4000) (k : Fin 128) :
    concatenate S4000x256 1 [⟨S4000x128, x⟩, ⟨S4000x128, y⟩] h (ix2 p (⟨128 + k.val, by omega⟩ : Fin 256)) = y (ix2 p k) :=
  concatenate_pair_apply_right 1 x y h _ rfl rfl (ix2 p k) (fun b => match b with
    | ⟨0, _⟩ => fun _ => rfl
    | ⟨1, _⟩ => fun hb => absurd rfl hb) (by show k.val + 128 = 128 + k.val; omega)

/-- The packed product of the body at (p, q): the left block against rows 0..127 of the packed weight plus the right
    block against rows 128..255. -/
theorem packed_apply (x0 x1 : Vec Ideal S4000x128 .bf16) (x2 : Vec Ideal S256x128 .bf16) (p : Fin 4000) (q : Fin 128) :
    k2_pay1 x0 x1 x2 (ix2 p q)
      = ∑ k : Fin 128, x0 (ix2 p k) * x2 (ix2 (⟨k.val, by omega⟩ : Fin 256) q)
        + ∑ k : Fin 128, x1 (ix2 p k) * x2 (ix2 (⟨128 + k.val, by omega⟩ : Fin 256) q) := by
  unfold k2_pay1
  simp only [shapeCast_self]
  refine (matmul_zero_apply _ _ p q).trans ?_
  refine (sum_split _).trans ?_
  congr 1 <;> refine Finset.sum_congr rfl fun k _ => ?_
  · rw [beside_left, shapeCast_self]
  · rw [beside_right, shapeCast_self]

/-- A [256,128] weight packed from two [256,64] halves: lanes 0..63 read the first half. -/
theorem packed_weight_left (Wm Ws : FVec Ideal S256x64 .f32) (h : Shape.Concatenates [S256x64, S256x64] S256x128 1)
    (k : Fin 256) (q : Fin 64) :
    concatenate S256x128 1 [⟨S256x64, Wm⟩, ⟨S256x64, Ws⟩] h (ix2 k (⟨q.val, by omega⟩ : Fin 128)) = Wm (ix2 k q) :=
  concatenate_pair_apply_left 1 Wm Ws h _ rfl (ix2 k q) fun b => match b with
    | ⟨0, _⟩ => rfl
    | ⟨1, _⟩ => rfl

/-- … and lanes 64..127 read the second half, 64 lanes back. -/
theorem packed_weight_right (Wm Ws : FVec Ideal S256x64 .f32) (h : Shape.Concatenates [S256x64, S256x64] S256x128 1)
    (k : Fin 256) (q : Fin 64) :
    concatenate S256x128 1 [⟨S256x64, Wm⟩, ⟨S256x64, Ws⟩] h (ix2 k (⟨64 + q.val, by omega⟩ : Fin 128)) = Ws (ix2 k q) :=
  concatenate_pair_apply_right 1 Wm Ws h _ rfl rfl (ix2 k q) (fun b => match b with
    | ⟨0, _⟩ => fun _ => rfl
    | ⟨1, _⟩ => fun hb => absurd rfl hb) (by show q.val + 64 = 64 + q.val; omega)

/-- The split-weight sum of row vectors `a`, `b` (128 entries each) against a [256,64] weight, at column q:
    `a` against rows 0..127 plus `b` against rows 128..255. -/
abbrev splitSum (a b : Fin 128 → EReal) (W : FVec Ideal S256x64 .f32) (q : Fin 64) : EReal :=
  ∑ k : Fin 128, a k * W (ix2 (⟨k.val, by omega⟩ : Fin 256) q) + ∑ k : Fin 128, b k * W (ix2 (⟨128 + k.val, by omega⟩ : Fin 256) q)

/-- Window 4's payload at (p, q): the column's entry times the split-weight sum against the mean's half. -/
theorem mean_payload_apply (x0 x1 : Vec Ideal S4000x128 .bf16) (x2 : Vec Ideal S256x128 .bf16) (x3 : Vec Ideal S4000x1 .f32)
    (Wm Ws : FVec Ideal S256x64 .f32) (h : Shape.Concatenates [S256x64, S256x64] S256x128 1)
    (hw : x2 = concatenate S256x128 1 [⟨S256x64, Wm⟩, ⟨S256x64, Ws⟩] h) (p : Fin 4000) (q : Fin 64) :
    k2_pay3 x0 x1 x2 x3 (ix2 p q)
      = x3 (ix2 p (0 : Fin 1)) * splitSum (fun k => x0 (ix2 p k)) (fun k => x1 (ix2 p k)) Wm q := by
  unfold k2_pay3 k2_pay2
  simp only [shapeCast_self]
  show broadcastTo S4000x64 x3 _ (ix2 p q) * extractStridedSlice S4000x64 ![0, 0] (k2_pay1 x0 x1 x2) _ (ix2 p q) = _
  rw [column_broadcast_apply]
  refine congrArg (x3 (ix2 p (0 : Fin 1)) * ·) ?_
  refine (extractStridedSlice_apply ![0, 0] (k2_pay1 x0 x1 x2) _ (ix2 p q) (ix2 p (⟨q.val, by omega⟩ : Fin 128)) (fun a => match a with
    | ⟨0, _⟩ => by show p.val = 0 + p.val; omega
    | ⟨1, _⟩ => by show q.val = 0 + q.val; omega)).trans ?_
  refine (packed_apply x0 x1 x2 p _).trans ?_
  subst hw
  congr 1 <;> refine Finset.sum_congr rfl fun k _ => ?_
  · rw [packed_weight_left]
  · rw [packed_weight_left]

/-- Window 5's payload at (p, q): the column's entry squared times the exponential of the split-weight sum against
    the log deviation's half. -/
theorem dev_payload_apply (x0 x1 : Vec Ideal S4000x128 .bf16) (x2 : Vec Ideal S256x128 .bf16) (x3 : Vec Ideal S4000x1 .f32)
    (Wm Ws : FVec Ideal S256x64 .f32) (h : Shape.Concatenates [S256x64, S256x64] S256x128 1)
    (hw : x2 = concatenate S256x128 1 [⟨S256x64, Wm⟩, ⟨S256x64, Ws⟩] h) (p : Fin 4000) (q : Fin 64) :
    k2_pay4 x0 x1 x2 x3 (ix2 p q)
      = (x3 (ix2 p (0 : Fin 1)) * x3 (ix2 p (0 : Fin 1)))
        * Ideal.exp (splitSum (fun k => x0 (ix2 p k)) (fun k => x1 (ix2 p k)) Ws q) := by
  unfold k2_pay4 k2_pay2
  simp only [shapeCast_self]
  show (broadcastTo S4000x64 (mulf x3 x3 : FVec Ideal S4000x1 .f32) _ : FVec Ideal S4000x64 .f32) (ix2 p q)
      * Ideal.exp ((extractStridedSlice S4000x64 ![0, 64] (k2_pay1 x0 x1 x2) _ : FVec Ideal S4000x64 .f32) (ix2 p q)) = _
  rw [column_broadcast_apply]
  refine congrArg (fun z => (x3 (ix2 p (0 : Fin 1)) * x3 (ix2 p (0 : Fin 1))) * Ideal.exp z) ?_
  refine (extractStridedSlice_apply ![0, 64] (k2_pay1 x0 x1 x2) _ (ix2 p q) (ix2 p (⟨64 + q.val, by omega⟩ : Fin 128)) (fun a => match a with
    | ⟨0, _⟩ => by show p.val = 0 + p.val; omega
    | ⟨1, _⟩ => by show 64 + q.val = 64 + q.val; rfl)).trans ?_
  refine (packed_apply x0 x1 x2 p _).trans ?_
  subst hw
  congr 1 <;> refine Finset.sum_congr rfl fun k _ => ?_
  · rw [packed_weight_right]
  · rw [packed_weight_right]

/-! ## The reference's operations read at an index -/

theorem lhsB_0 (i : S1000000x64.Idx) (q : dotB.contr.Idx) : (dotB.lhsIdx i q 0).val = (i 0).val := by
  unfold DotDims.lhsIdx
  rw [dif_neg (show ¬(0 : Fin S1000000x128.rank) ∈ dotB.lhsBatch by decide), dif_pos (show (0 : Fin S1000000x128.rank) ∈ dotB.lhsNonContracting by decide)]
  rfl
theorem lhsB_1 (i : S1000000x64.Idx) (q : dotB.contr.Idx) : (dotB.lhsIdx i q 1).val = (q ⟨0, by decide⟩).val :=
  dotB.lhsIdx_val_of_single rfl i q
theorem rhsB_0 (i : S1000000x64.Idx) (q : dotB.contr.Idx) : (dotB.rhsIdx i q 0).val = (q ⟨0, by decide⟩).val :=
  dotB.rhsIdx_val_of_single rfl i q
theorem rhsB_1 (i : S1000000x64.Idx) (q : dotB.contr.Idx) : (dotB.rhsIdx i q 1).val = (i 1).val := by
  unfold DotDims.rhsIdx
  rw [dif_neg (show ¬(1 : Fin Cert.ReferenceIdeal.S128x64.rank) ∈ dotB.rhsBatch by decide), dif_pos (show (1 : Fin Cert.ReferenceIdeal.S128x64.rank) ∈ dotB.rhsNonContracting by decide)]
  rfl

/-- The reference's [1000000,128] times [128,64] product at (r, q): the sum over the 128 contracted positions. -/
theorem ref_dot_apply (X : FVec Ideal S1000000x128 .bf16) (W : FVec Ideal Cert.ReferenceIdeal.S128x64 .f32) (r : Fin 1000000) (q : Fin 64) :
    Host.dotGeneral (F := Ideal) (φ₁ := .bf16) (φ₂ := .f32) dotB none X W (ix2 r q) = ∑ k : Fin 128, X (ix2 r k) * W (ix2 k q) := by
  simp only [Host.dotGeneral]
  rw [Ideal.dotGeneral_apply, ← Equiv.sum_comp (ValueIdx.contrEquiv1 dotB 128 rfl rfl).symm]
  refine Finset.sum_congr rfl fun k _ => ?_
  have hk := ValueIdx.contrEquiv1_symm_val dotB 128 rfl rfl k
  have el : dotB.lhsIdx (ix2 r q) ((ValueIdx.contrEquiv1 dotB 128 rfl rfl).symm k) = ix2 r k := funext fun a => Fin.ext (by
    match a with
    | ⟨0, _⟩ => exact lhsB_0 _ _
    | ⟨1, _⟩ => exact (lhsB_1 _ _).trans hk)
  have er : dotB.rhsIdx (ix2 r q) ((ValueIdx.contrEquiv1 dotB 128 rfl rfl).symm k) = ix2 k q := funext fun a => Fin.ext (by
    match a with
    | ⟨0, _⟩ => exact (rhsB_0 _ _).trans hk
    | ⟨1, _⟩ => exact rhsB_1 _ _)
  rw [el, er]

/-- Rows 0..127 of a weight, at (k, q). -/
theorem top_apply (W : FVec Ideal S256x64 .f32) (k : Fin 128) (q : Fin 64) :
    top W (ix2 k q) = W (ix2 (⟨k.val, by omega⟩ : Fin 256) q) :=
  extractStridedSlice_apply ![0, 0] W _ (ix2 k q) (ix2 (⟨k.val, by omega⟩ : Fin 256) q) (fun a => match a with
    | ⟨0, _⟩ => by show k.val = 0 + k.val; omega
    | ⟨1, _⟩ => by show q.val = 0 + q.val; omega)

/-- Rows 128..255 of a weight, at (k, q). -/
theorem bot_apply (W : FVec Ideal S256x64 .f32) (k : Fin 128) (q : Fin 64) :
    bot W (ix2 k q) = W (ix2 (⟨128 + k.val, by omega⟩ : Fin 256) q) :=
  extractStridedSlice_apply ![128, 0] W _ (ix2 k q) (ix2 (⟨128 + k.val, by omega⟩ : Fin 256) q) (fun a => match a with
    | ⟨0, _⟩ => by show 128 + k.val = 128 + k.val; rfl
    | ⟨1, _⟩ => by show q.val = 0 + q.val; omega)

/-- The reference's split-weight form at (r, q): the two products added are the split-weight sum of the two rows. -/
theorem ref_split_apply (X Y : FVec Ideal S1000000x128 .bf16) (W : FVec Ideal S256x64 .f32) (r : Fin 1000000) (q : Fin 64) :
    addf (Host.dotGeneral (F := Ideal) (φ₁ := .bf16) (φ₂ := .f32) dotB none X (top W))
        (Host.dotGeneral (F := Ideal) (φ₁ := .bf16) (φ₂ := .f32) dotB none Y (bot W)) (ix2 r q)
      = splitSum (fun k => X (ix2 r k)) (fun k => Y (ix2 r k)) W q := by
  show Host.dotGeneral (F := Ideal) (φ₁ := .bf16) (φ₂ := .f32) dotB none X (top W) (ix2 r q)
      + Host.dotGeneral (F := Ideal) (φ₁ := .bf16) (φ₂ := .f32) dotB none Y (bot W) (ix2 r q) = _
  rw [ref_dot_apply, ref_dot_apply]
  congr 1 <;> refine Finset.sum_congr rfl fun k _ => ?_
  · rw [top_apply]
  · rw [bot_apply]

/-- A [1000000,1] column broadcast to [1000000,64] reads, at (r, q), the column's entry of row r. -/
theorem ref_column_apply (x : FVec Ideal S1000000x1 .f32) (r : Fin 1000000) (q : Fin 64) :
    broadcastInDim Cert.ReferenceIdeal.S1000000x64 ![0, 1] Cert.ReferenceIdeal.Facts₀.bcast_S1000000x1_S1000000x64_0_1 x (ix2 r q)
      = x (ix2 r (0 : Fin 1)) :=
  broadcastInDim_apply _ Cert.ReferenceIdeal.Facts₀.bcast_S1000000x1_S1000000x64_0_1 x (ix2 r q) (ix2 r (0 : Fin 1)) (fun a => match a with
    | ⟨0, _⟩ => by show r.val = if (1000000 : Nat) = 1 then 0 else r.val; rw [if_neg (by decide)]
    | ⟨1, _⟩ => by show 0 = if (1 : Nat) = 1 then 0 else q.val; rw [if_pos rfl])

/-- The reference's weighted mean: the edge-value column broadcast along the lanes, times the split-weight form. -/
abbrev refMean (bv : FVec Ideal S1000000x1 .f32) (X Y : FVec Ideal S1000000x128 .bf16) (W : FVec Ideal S256x64 .f32) :
    FVec Ideal S1000000x64 .f32 :=
  mulf (broadcastInDim Cert.ReferenceIdeal.S1000000x64 ![0, 1] Cert.ReferenceIdeal.Facts₀.bcast_S1000000x1_S1000000x64_0_1 bv)
    (addf (Host.dotGeneral (F := Ideal) (φ₁ := .bf16) (φ₂ := .f32) dotB none X (top W)) (Host.dotGeneral (F := Ideal) (φ₁ := .bf16) (φ₂ := .f32) dotB none Y (bot W)))

/-- The reference's weighted deviation: the squared edge-value column broadcast along the lanes, times the exponential
    of the split-weight form. -/
abbrev refDev (bv : FVec Ideal S1000000x1 .f32) (X Y : FVec Ideal S1000000x128 .bf16) (W : FVec Ideal S256x64 .f32) :
    FVec Ideal S1000000x64 .f32 :=
  mulf (broadcastInDim Cert.ReferenceIdeal.S1000000x64 ![0, 1] Cert.ReferenceIdeal.Facts₀.bcast_S1000000x1_S1000000x64_0_1 (mulf bv bv))
    (Host.exp (F := Ideal) (addf (Host.dotGeneral (F := Ideal) (φ₁ := .bf16) (φ₂ := .f32) dotB none X (top W)) (Host.dotGeneral (F := Ideal) (φ₁ := .bf16) (φ₂ := .f32) dotB none Y (bot W))))

theorem refMean_apply (bv : FVec Ideal S1000000x1 .f32) (X Y : FVec Ideal S1000000x128 .bf16) (W : FVec Ideal S256x64 .f32)
    (r : Fin 1000000) (q : Fin 64) :
    refMean bv X Y W (ix2 r q) = bv (ix2 r (0 : Fin 1)) * splitSum (fun k => X (ix2 r k)) (fun k => Y (ix2 r k)) W q := by
  show broadcastInDim Cert.ReferenceIdeal.S1000000x64 ![0, 1] Cert.ReferenceIdeal.Facts₀.bcast_S1000000x1_S1000000x64_0_1 bv (ix2 r q)
      * addf (Host.dotGeneral (F := Ideal) (φ₁ := .bf16) (φ₂ := .f32) dotB none X (top W)) (Host.dotGeneral (F := Ideal) (φ₁ := .bf16) (φ₂ := .f32) dotB none Y (bot W)) (ix2 r q) = _
  rw [ref_column_apply, ref_split_apply]

theorem refDev_apply (bv : FVec Ideal S1000000x1 .f32) (X Y : FVec Ideal S1000000x128 .bf16) (W : FVec Ideal S256x64 .f32)
    (r : Fin 1000000) (q : Fin 64) :
    refDev bv X Y W (ix2 r q)
      = (bv (ix2 r (0 : Fin 1)) * bv (ix2 r (0 : Fin 1))) * Ideal.exp (splitSum (fun k => X (ix2 r k)) (fun k => Y (ix2 r k)) W q) := by
  show broadcastInDim Cert.ReferenceIdeal.S1000000x64 ![0, 1] Cert.ReferenceIdeal.Facts₀.bcast_S1000000x1_S1000000x64_0_1 (mulf bv bv) (ix2 r q)
      * Ideal.exp (addf (Host.dotGeneral (F := Ideal) (φ₁ := .bf16) (φ₂ := .f32) dotB none X (top W)) (Host.dotGeneral (F := Ideal) (φ₁ := .bf16) (φ₂ := .f32) dotB none Y (bot W)) (ix2 r q)) = _
  rw [ref_column_apply, ref_split_apply]
  rfl

/-- Window 4's payload at row p of a block whose rows are rows r of the arrays is the reference's mean at row r. -/
theorem mean_point (x0 x1 : Vec Ideal S4000x128 .bf16) (x2 : Vec Ideal S256x128 .bf16) (x3 : Vec Ideal S4000x1 .f32)
    (bv : FVec Ideal S1000000x1 .f32) (X Y : FVec Ideal S1000000x128 .bf16)
    (Wm Ws : FVec Ideal S256x64 .f32) (h : Shape.Concatenates [S256x64, S256x64] S256x128 1)
    (hw : x2 = concatenate S256x128 1 [⟨S256x64, Wm⟩, ⟨S256x64, Ws⟩] h) (p : Fin 4000) (q : Fin 64) (r : Fin 1000000)
    (h0 : ∀ k : Fin 128, x0 (ix2 p k) = X (ix2 r k)) (h1 : ∀ k : Fin 128, x1 (ix2 p k) = Y (ix2 r k))
    (h3 : x3 (ix2 p (0 : Fin 1)) = bv (ix2 r (0 : Fin 1))) :
    k2_pay3 x0 x1 x2 x3 (ix2 p q) = refMean bv X Y Wm (ix2 r q) := by
  rw [mean_payload_apply x0 x1 x2 x3 Wm Ws h hw, refMean_apply, h3,
    show (fun k => x0 (ix2 p k)) = fun k => X (ix2 r k) from funext h0,
    show (fun k => x1 (ix2 p k)) = fun k => Y (ix2 r k) from funext h1]

/-- Window 5's payload likewise is the reference's deviation at row r. -/
theorem dev_point (x0 x1 : Vec Ideal S4000x128 .bf16) (x2 : Vec Ideal S256x128 .bf16) (x3 : Vec Ideal S4000x1 .f32)
    (bv : FVec Ideal S1000000x1 .f32) (X Y : FVec Ideal S1000000x128 .bf16)
    (Wm Ws : FVec Ideal S256x64 .f32) (h : Shape.Concatenates [S256x64, S256x64] S256x128 1)
    (hw : x2 = concatenate S256x128 1 [⟨S256x64, Wm⟩, ⟨S256x64, Ws⟩] h) (p : Fin 4000) (q : Fin 64) (r : Fin 1000000)
    (h0 : ∀ k : Fin 128, x0 (ix2 p k) = X (ix2 r k)) (h1 : ∀ k : Fin 128, x1 (ix2 p k) = Y (ix2 r k))
    (h3 : x3 (ix2 p (0 : Fin 1)) = bv (ix2 r (0 : Fin 1))) :
    k2_pay4 x0 x1 x2 x3 (ix2 p q) = refDev bv X Y Ws (ix2 r q) := by
  rw [dev_payload_apply x0 x1 x2 x3 Wm Ws h hw, refDev_apply, h3,
    show (fun k => x0 (ix2 p k)) = fun k => X (ix2 r k) from funext h0,
    show (fun k => x1 (ix2 p k)) = fun k => Y (ix2 r k) from funext h1]

/-! ## From blocks to the arrays -/

/-- The index maps over the 250 grid points: a row-blocked window's block index at point t is (t, 0), the weight's (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row p of block t is row 4000 t + p of the array. -/
theorem row_lt (t : Fin cfg2.N) (p : Fin 4000) : t.val * 4000 + p.val < 1000000 := by
  have hN : grid2.N = 250 := N_2
  have ht : t.val < grid2.N := t.isLt
  have hp := p.isLt
  omega

abbrev rowOf (t : Fin cfg2.N) (p : Fin 4000) : Fin 1000000 := ⟨t.val * 4000 + p.val, row_lt t p⟩

theorem left_block_apply (V : VT) (c : Dev nD) (t : Fin cfg2.N) (p : Fin 4000) (k : Fin 128) :
    (iblk2 (F := Ideal) V c 0 t : Vec Ideal S4000x128 .bf16) (ix2 p k)
      = (V c main_v49 : FVec Ideal S1000000x128 .bf16) (ix2 (rowOf t p) k) := by
  obtain ⟨e0, e1, -⟩ := index_facts t
  unfold iblk2
  rw [View.read_apply]
  show V c main_v49 _ = V c main_v49 _
  congr 1
  funext a
  apply Fin.ext
  match a with
  | ⟨0, _⟩ => show win2_0.index t (0 : Fin 2) * 4000 + 1 * p.val = t.val * 4000 + p.val; rw [e0]; omega
  | ⟨1, _⟩ => show win2_0.index t (1 : Fin 2) * 128 + 1 * k.val = k.val; rw [e1]; omega

theorem right_block_apply (V : VT) (c : Dev nD) (t : Fin cfg2.N) (p : Fin 4000) (k : Fin 128) :
    (iblk2 (F := Ideal) V c 1 t : Vec Ideal S4000x128 .bf16) (ix2 p k)
      = (V c main_v58 : FVec Ideal S1000000x128 .bf16) (ix2 (rowOf t p) k) := by
  obtain ⟨-, -, e0, e1, -⟩ := index_facts t
  unfold iblk2
  rw [View.read_apply]
  show V c main_v58 _ = V c main_v58 _
  congr 1
  funext a
  apply Fin.ext
  match a with
  | ⟨0, _⟩ => show win2_1.index t (0 : Fin 2) * 4000 + 1 * p.val = t.val * 4000 + p.val; rw [e0]; omega
  | ⟨1, _⟩ => show win2_1.index t (1 : Fin 2) * 128 + 1 * k.val = k.val; rw [e1]; omega

theorem column_block_apply (V : VT) (c : Dev nD) (t : Fin cfg2.N) (p : Fin 4000) :
    (iblk2 (F := Ideal) V c 3 t : Vec Ideal S4000x1 .f32) (ix2 p (0 : Fin 1))
      = (V c main_v59 : FVec Ideal S1000000x1 .f32) (ix2 (rowOf t p) (0 : Fin 1)) := by
  obtain ⟨-, -, -, -, -, -, e0, e1, -⟩ := index_facts t
  unfold iblk2
  rw [View.read_apply]
  show V c main_v59 _ = V c main_v59 _
  congr 1
  funext a
  apply Fin.ext
  match a with
  | ⟨0, _⟩ => show win2_3.index t (0 : Fin 2) * 4000 + 1 * p.val = t.val * 4000 + p.val; rw [e0]; omega
  | ⟨1, _⟩ => show win2_3.index t (1 : Fin 2) * 1 + 1 * 0 = 0; rw [e1]

/-- The weight's one block is the whole packed weight. -/
theorem weight_block_eq (V : VT) (c : Dev nD) (t : Fin cfg2.N) :
    (iblk2 (F := Ideal) V c 2 t : Vec Ideal S256x128 .bf16) = (V c main_v21 : FVec Ideal S256x128 .bf16) := by
  obtain ⟨-, -, -, -, e0, e1, -⟩ := index_facts t
  funext y
  unfold iblk2
  rw [View.read_apply]
  show V c main_v21 _ = V c main_v21 y
  congr 1
  funext a
  apply Fin.ext
  match a with
  | ⟨0, _⟩ => show win2_2.index t (0 : Fin 2) * 256 + 1 * (y 0).val = (y 0).val; rw [e0]; omega
  | ⟨1, _⟩ => show win2_2.index t (1 : Fin 2) * 128 + 1 * (y 1).val = (y 1).val; rw [e1]; omega

/-- What point t writes back to window 4's array is block t of the reference's weighted mean. -/
theorem mean_flushed (V : VT) (c : Dev nD) (Wm Ws : FVec Ideal S256x64 .f32)
    (hw : V c main_v21 = concatenate S256x128 1 [⟨S256x64, Wm⟩, ⟨S256x64, Ws⟩] Cert.KernelIdeal.Facts₀.concatenates_S256x64_S256x64_S256x128_d1)
    (t : Fin cfg2.N) :
    (dat2 (F := Ideal) V c).flushed 4 t
      = ((cfg2.win 4).blk t).view.read (Elt Ideal) (refMean (V c main_v59) (V c main_v49) (V c main_v58) Wm) := by
  show (cfg2.win 4).cut (grid2.coords t) ((dat2 (F := Ideal) V c).after 4 t) = _
  rw [after2_4]
  unfold out2_4
  rw [View.canon_unit_zero zero_off]
  simp only [View.ld_unit_zero (S := S4000x128) zero_off, View.ld_unit_zero (S := S256x128) zero_off, View.ld_unit_zero (S := S4000x1) zero_off]
  obtain ⟨-, -, -, -, -, -, -, -, e40, e41, e50, e51⟩ := index_facts t
  funext j
  have hp : (j 0).val < 4000 := (j 0).isLt
  have hq : (j 1).val < 64 := (j 1).isLt
  rw [View.read_apply]
  -- where the block's entry (p, q) sits in the array: row 4000 t + p, lane q
  have hout : ((cfg2.win 4).blk t).view.emb j = ix2 (rowOf t ⟨(j 0).val, hp⟩) (⟨(j 1).val, hq⟩ : Fin 64) := by
    funext a
    apply Fin.ext
    match a with
    | ⟨0, _⟩ => show win2_4.index t (0 : Fin 2) * 4000 + 1 * (j 0).val = t.val * 4000 + (j 0).val; rw [e40]; omega
    | ⟨1, _⟩ => show win2_4.index t (1 : Fin 2) * 64 + 1 * (j 1).val = (j 1).val; rw [e41]; omega
  rw [hout]
  -- the write-back reads the payload at the same coordinates
  have hin : (cfg2.win 4).xinj (grid2.coords t) j = ix2 (⟨(j 0).val, hp⟩ : Fin 4000) (⟨(j 1).val, hq⟩ : Fin 64) :=
    funext fun a => Fin.ext (by match a with | ⟨0, _⟩ => rfl | ⟨1, _⟩ => rfl)
  refine (congrArg (k2_pay3 (iblk2 V c 0 t) (iblk2 V c 1 t) (iblk2 V c 2 t) (iblk2 V c 3 t)) hin).trans ?_
  exact mean_point _ _ _ _ _ _ _ Wm Ws _ ((weight_block_eq V c t).trans hw) _ _ _
    (fun k => left_block_apply V c t _ k) (fun k => right_block_apply V c t _ k) (column_block_apply V c t _)

/-- What point t writes back to window 5's array is block t of the reference's weighted deviation. -/
theorem dev_flushed (V : VT) (c : Dev nD) (Wm Ws : FVec Ideal S256x64 .f32)
    (hw : V c main_v21 = concatenate S256x128 1 [⟨S256x64, Wm⟩, ⟨S256x64, Ws⟩] Cert.KernelIdeal.Facts₀.concatenates_S256x64_S256x64_S256x128_d1)
    (t : Fin cfg2.N) :
    (dat2 (F := Ideal) V c).flushed 5 t
      = ((cfg2.win 5).blk t).view.read (Elt Ideal) (refDev (V c main_v59) (V c main_v49) (V c main_v58) Ws) := by
  show (cfg2.win 5).cut (grid2.coords t) ((dat2 (F := Ideal) V c).after 5 t) = _
  rw [after2_5]
  unfold out2_5
  rw [View.canon_unit_zero zero_off]
  simp only [View.ld_unit_zero (S := S4000x128) zero_off, View.ld_unit_zero (S := S256x128) zero_off, View.ld_unit_zero (S := S4000x1) zero_off]
  obtain ⟨-, -, -, -, -, -, -, -, e40, e41, e50, e51⟩ := index_facts t
  funext j
  have hp : (j 0).val < 4000 := (j 0).isLt
  have hq : (j 1).val < 64 := (j 1).isLt
  rw [View.read_apply]
  -- where the block's entry (p, q) sits in the array: row 4000 t + p, lane q
  have hout : ((cfg2.win 5).blk t).view.emb j = ix2 (rowOf t ⟨(j 0).val, hp⟩) (⟨(j 1).val, hq⟩ : Fin 64) := by
    funext a
    apply Fin.ext
    match a with
    | ⟨0, _⟩ => show win2_5.index t (0 : Fin 2) * 4000 + 1 * (j 0).val = t.val * 4000 + (j 0).val; rw [e50]; omega
    | ⟨1, _⟩ => show win2_5.index t (1 : Fin 2) * 64 + 1 * (j 1).val = (j 1).val; rw [e51]; omega
  rw [hout]
  -- the write-back reads the payload at the same coordinates
  have hin : (cfg2.win 5).xinj (grid2.coords t) j = ix2 (⟨(j 0).val, hp⟩ : Fin 4000) (⟨(j 1).val, hq⟩ : Fin 64) :=
    funext fun a => Fin.ext (by match a with | ⟨0, _⟩ => rfl | ⟨1, _⟩ => rfl)
  refine (congrArg (k2_pay4 (iblk2 V c 0 t) (iblk2 V c 1 t) (iblk2 V c 2 t) (iblk2 V c 3 t)) hin).trans ?_
  exact dev_point _ _ _ _ _ _ _ Wm Ws _ ((weight_block_eq V c t).trans hw) _ _ _
    (fun k => left_block_apply V c t _ k) (fun k => right_block_apply V c t _ k) (column_block_apply V c t _)

/-- An index of the array is in point t's block of window 4 iff each coordinate is in the block's range on its axis. -/
theorem mem_block4 (t : Fin cfg2.N) (i : S1000000x64.Idx) :
    i ∈ ((cfg2.win 4).blk t).view.set
      ↔ ∀ a : Fin 2, win2_4.index t a * S4000x64.size a ≤ (i a).val ∧ (i a).val < win2_4.index t a * S4000x64.size a + S4000x64.size a := by
  show i ∈ ((View.whole main_v60_0).slice (win2_4.rect t)).set ↔ _
  rw [View.set_slice_whole, Rect.mem_set_unit]
  exact Iff.rfl

/-- The 250 blocks of 4000 rows tile the array: row r is in the block of point r / 4000. -/
theorem cover4 (i : S1000000x64.Idx) :
    ∃ t : Fin cfg2.N, (cfg2.win 4).flush t = true ∧ i ∈ ((cfg2.win 4).blk t).view.set := by
  have hN : grid2.N = 250 := N_2
  have hi0 : (i 0).val < 1000000 := (i 0).isLt
  have hi1 : (i 1).val < 64 := (i 1).isLt
  have ht : (i 0).val / 4000 < cfg2.N := by show (i 0).val / 4000 < grid2.N; rw [hN]; omega
  refine ⟨⟨(i 0).val / 4000, ht⟩, flush2_4 _, ?_⟩
  rw [mem_block4]
  obtain ⟨-, -, -, -, -, -, -, -, e40, e41, e50, e51⟩ := index_facts ⟨(i 0).val / 4000, ht⟩
  intro a
  match a with
  | ⟨0, _⟩ =>
    show win2_4.index ⟨(i 0).val / 4000, ht⟩ (0 : Fin 2) * 4000 ≤ (i 0).val ∧ (i 0).val < win2_4.index ⟨(i 0).val / 4000, ht⟩ (0 : Fin 2) * 4000 + 4000
    rw [e40]
    show (i 0).val / 4000 * 4000 ≤ (i 0).val ∧ (i 0).val < (i 0).val / 4000 * 4000 + 4000
    omega
  | ⟨1, _⟩ =>
    show win2_4.index ⟨(i 0).val / 4000, ht⟩ (1 : Fin 2) * 64 ≤ (i 1).val ∧ (i 1).val < win2_4.index ⟨(i 0).val / 4000, ht⟩ (1 : Fin 2) * 64 + 64
    rw [e41]
    omega

/-- An index of the array is in point t's block of window 5 iff each coordinate is in the block's range on its axis. -/
theorem mem_block5 (t : Fin cfg2.N) (i : S1000000x64.Idx) :
    i ∈ ((cfg2.win 5).blk t).view.set
      ↔ ∀ a : Fin 2, win2_5.index t a * S4000x64.size a ≤ (i a).val ∧ (i a).val < win2_5.index t a * S4000x64.size a + S4000x64.size a := by
  show i ∈ ((View.whole main_v60_1).slice (win2_5.rect t)).set ↔ _
  rw [View.set_slice_whole, Rect.mem_set_unit]
  exact Iff.rfl

/-- The 250 blocks of 4000 rows tile the array: row r is in the block of point r / 4000. -/
theorem cover5 (i : S1000000x64.Idx) :
    ∃ t : Fin cfg2.N, (cfg2.win 5).flush t = true ∧ i ∈ ((cfg2.win 5).blk t).view.set := by
  have hN : grid2.N = 250 := N_2
  have hi0 : (i 0).val < 1000000 := (i 0).isLt
  have hi1 : (i 1).val < 64 := (i 1).isLt
  have ht : (i 0).val / 4000 < cfg2.N := by show (i 0).val / 4000 < grid2.N; rw [hN]; omega
  refine ⟨⟨(i 0).val / 4000, ht⟩, flush2_5 _, ?_⟩
  rw [mem_block5]
  obtain ⟨-, -, -, -, -, -, -, -, e40, e41, e50, e51⟩ := index_facts ⟨(i 0).val / 4000, ht⟩
  intro a
  match a with
  | ⟨0, _⟩ =>
    show win2_5.index ⟨(i 0).val / 4000, ht⟩ (0 : Fin 2) * 4000 ≤ (i 0).val ∧ (i 0).val < win2_5.index ⟨(i 0).val / 4000, ht⟩ (0 : Fin 2) * 4000 + 4000
    rw [e50]
    show (i 0).val / 4000 * 4000 ≤ (i 0).val ∧ (i 0).val < (i 0).val / 4000 * 4000 + 4000
    omega
  | ⟨1, _⟩ =>
    show win2_5.index ⟨(i 0).val / 4000, ht⟩ (1 : Fin 2) * 64 ≤ (i 1).val ∧ (i 1).val < win2_5.index ⟨(i 0).val / 4000, ht⟩ (1 : Fin 2) * 64 + 64
    rw [e51]
    omega

theorem arr2_4 (V : VT) (c : Dev nD) (Wm Ws : FVec Ideal S256x64 .f32)
    (hw : V c main_v21 = concatenate S256x128 1 [⟨S256x64, Wm⟩, ⟨S256x64, Ws⟩] Cert.KernelIdeal.Facts₀.concatenates_S256x64_S256x64_S256x128_d1) :
    (dat2 (F := Ideal) V c).arrAt 4 cfg2.N
      = mulf (broadcastInDim Cert.ReferenceIdeal.S1000000x64 ![0, 1] Cert.ReferenceIdeal.Facts₀.bcast_S1000000x1_S1000000x64_0_1 (V c main_v59 : FVec Ideal S1000000x1 .f32))
          (addf (Host.dotGeneral (F := Ideal) (φ₁ := .bf16) (φ₂ := .f32) dotB none (V c main_v49 : FVec Ideal S1000000x128 .bf16) (top Wm)) (Host.dotGeneral (F := Ideal) (φ₁ := .bf16) (φ₂ := .f32) dotB none (V c main_v58 : FVec Ideal S1000000x128 .bf16) (bot Wm))) :=
  (dat2 (F := Ideal) V c).arrAt_eq_of_cover 4 _ (fun t _ => mean_flushed V c Wm Ws hw t) cover4

theorem arr2_5 (V : VT) (c : Dev nD) (Wm Ws : FVec Ideal S256x64 .f32)
    (hw : V c main_v21 = concatenate S256x128 1 [⟨S256x64, Wm⟩, ⟨S256x64, Ws⟩] Cert.KernelIdeal.Facts₀.concatenates_S256x64_S256x64_S256x128_d1) :
    (dat2 (F := Ideal) V c).arrAt 5 cfg2.N
      = mulf (broadcastInDim Cert.ReferenceIdeal.S1000000x64 ![0, 1] Cert.ReferenceIdeal.Facts₀.bcast_S1000000x1_S1000000x64_0_1 (mulf (V c main_v59 : FVec Ideal S1000000x1 .f32) (V c main_v59 : FVec Ideal S1000000x1 .f32)))
          (Host.exp (F := Ideal) (addf (Host.dotGeneral (F := Ideal) (φ₁ := .bf16) (φ₂ := .f32) dotB none (V c main_v49 : FVec Ideal S1000000x128 .bf16) (top Ws)) (Host.dotGeneral (F := Ideal) (φ₁ := .bf16) (φ₂ := .f32) dotB none (V c main_v58 : FVec Ideal S1000000x128 .bf16) (bot Ws)))) :=
  (dat2 (F := Ideal) V c).arrAt_eq_of_cover 5 _ (fun t _ => dev_flushed V c Wm Ws hw t) cover5

end Cert.KernelIdeal.RegionNode

end
-- ==== Proof.StageNode.lean ====
/-
  After the third launch: the weighted means and the weighted variances of the bidirectional edges are the
  reference's stage functions of the launch arguments.
-/
import proofs.«103695_j56556129354623_2_alg».proof.Proof.Gen.KernelIdeal.Frame
import proofs.«103695_j56556129354623_2_alg».proof.Proof.Gen.ReferenceIdeal.Read
import proofs.«103695_j56556129354623_2_alg».proof.Proof.StageNodeRows
import proofs.«103695_j56556129354623_2_alg».proof.Proof.RegionNode
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-! ## After the third launch: the weighted means and the weighted variances of the bidirectional edges -/

set_option maxHeartbeats 400000 in
theorem W5_v60_0 : W5 m ρ c (Proc.devRef .tc main_v60_0) = val_main_v84 (F := Ideal) (A0 m c) (A1 m c) (A2 m c) (A4 m c) (A5 m c) (A9 m c) (A11 m c) := by
  refine (W5_arr m ρ c 4).trans ((Cert.KernelIdeal.RegionNode.arr2_4 (V4 m ρ) c (A2 m c) (A3 m c) (W4_v21 m ρ c)).trans ?_)
  dsimp only [V4]
  rw [W4_v59, W4_v49, W4_v58]
  simp only [dot_format]
  unfold val_main_v84 val_main_v83 val_main_v78 val_main_v76 val_main_v77 val_main_v18 val_main_v19
  rfl

set_option maxHeartbeats 400000 in
theorem W5_v60_1 : W5 m ρ c (Proc.devRef .tc main_v60_1) = val_main_v94 (F := Ideal) (A0 m c) (A1 m c) (A3 m c) (A4 m c) (A5 m c) (A9 m c) (A11 m c) := by
  refine (W5_arr m ρ c 5).trans ((Cert.KernelIdeal.RegionNode.arr2_5 (V4 m ρ) c (A2 m c) (A3 m c) (W4_v21 m ρ c)).trans ?_)
  dsimp only [V4]
  rw [W4_v59, W4_v49, W4_v58]
  simp only [dot_format]
  unfold val_main_v94 val_main_v93 val_main_v92 val_main_v91 val_main_v90 val_main_v82 val_main_v81 val_main_v79 val_main_v80 val_main_v20 val_main_v21
  rfl

theorem W5_v40_0 : W5 m ρ c (Proc.devRef .tc main_v40_0) = val_main_v54 (F := Ideal) (A0 m c) (A1 m c) (A2 m c) (A3 m c) (A4 m c) (A6 m c) (A9 m c) (A10 m c) :=
  (W5_of_ne m ρ c main_v40_0 (by decide)).trans (W4_v40_0 m ρ c)
theorem W5_v40_1 : W5 m ρ c (Proc.devRef .tc main_v40_1) = val_main_v57 (F := Ideal) (A0 m c) (A1 m c) (A2 m c) (A3 m c) (A4 m c) (A7 m c) (A9 m c) (A10 m c) :=
  (W5_of_ne m ρ c main_v40_1 (by decide)).trans (W4_v40_1 m ρ c)
theorem W5_arg8 : W5 m ρ c (Proc.devRef .tc main_arg8) = (A8 m c) := (W5_of_ne m ρ c main_arg8 (by decide)).trans (W4_arg8 m ρ c)
theorem W5_arg11 : W5 m ρ c (Proc.devRef .tc main_arg11) = (A11 m c) := (W5_of_ne m ρ c main_arg11 (by decide)).trans (W4_arg11 m ρ c)

end Cert.KernelIdeal.Stages

end
-- ==== Proof.LibRootLaw.lean ====
/-
  Two facts about extended reals that join the two programs' last lines.
  The kernel ends with  noise * sqrt(v) + mean,  the reference with  noise * exp(0.5 * log v) + mean.
  On the extended reals the two agree exactly where  0 ≤ v :  at  v = 0  the logarithm is -∞, half of it is -∞ and its
  exponential is 0 = sqrt 0;  at  v = +∞  both sides are +∞;  for a positive real  sqrt v = exp (log v / 2).
  (For  v < 0  they differ: the square root is the bottom element, the other side is 0.)  Here  v  is a sum, over the
  edges that land on a node, of  (b * b) * exp(l) : every term is ≥ 0, for b and l anywhere in the extended reals, so
  the sum added to 0 is ≥ 0 as well.
-/
import Idealize.ShloMosaic.PureOps.Ideal
import Idealize.ShloMosaic.PureOps.Ideal.Laws
import Mathlib.Analysis.SpecialFunctions.Pow.Real
import Mathlib.Analysis.SpecialFunctions.Sqrt

noncomputable section

namespace Cert.RootLaw

open Idealize.ShloMosaic

/-- The word 0x3F000000 is one half. -/
theorem half_eq : Ideal.ofBits .f32 0x3F000000#32 = ((2⁻¹ : ℝ) : EReal) := by
  simp [Ideal.ofBits, Ideal.ieee, -EReal.coe_mul]; norm_num

/-- For a positive real, the exponential of half the logarithm is the square root. -/
theorem real_exp_half_log (r : ℝ) (hr : 0 < r) : Real.exp (2⁻¹ * Real.log r) = Real.sqrt r := by
  rw [Real.sqrt_eq_rpow, Real.rpow_def_of_pos hr]
  congr 1; ring

/-- On a non-negative extended real the square root is the exponential of half the logarithm. -/
theorem sqrt_eq_exp_half_log (x : EReal) (hx : 0 ≤ x) :
    Ideal.sqrt x = Ideal.exp (Ideal.ofBits .f32 0x3F000000#32 * Ideal.log x) := by
  rw [half_eq]
  induction x using EReal.rec with
  | bot => exact absurd hx (by simp)
  | top =>
    rw [Ideal.sqrt_top, Ideal.log_top, EReal.coe_mul_top_of_pos (by norm_num), Ideal.exp_top]
  | coe r =>
    have hr : 0 ≤ r := by exact_mod_cast hx
    rw [Ideal.sqrt_coe, if_neg (not_lt.mpr hr), Ideal.log_coe]
    rcases hr.eq_or_lt with h0 | hpos
    · subst h0
      rw [if_pos le_rfl, EReal.coe_mul_bot_of_pos (by norm_num), Ideal.exp_bot, Real.sqrt_zero]
      rfl
    · rw [if_neg (not_le.mpr hpos), ← EReal.coe_mul, Ideal.exp_coe, real_exp_half_log r hpos]

/-- The exponential of an extended real is non-negative. -/
theorem exp_nonneg (x : EReal) : 0 ≤ Ideal.exp x := by
  induction x using EReal.rec with
  | bot => rw [Ideal.exp_bot]
  | top => rw [Ideal.exp_top]; exact le_top
  | coe r => rw [Ideal.exp_coe]; exact_mod_cast (Real.exp_pos r).le

/-- The square of an extended real is non-negative. -/
theorem mul_self_nonneg (x : EReal) : 0 ≤ x * x := by
  induction x using EReal.rec with
  | bot => rw [EReal.bot_mul_bot]; exact le_top
  | top => rw [EReal.top_mul_top]; exact le_top
  | coe r => rw [← EReal.coe_mul]; exact_mod_cast _root_.mul_self_nonneg r

/-- A scatter-add of non-negative updates onto non-negative contents is non-negative everywhere. -/
theorem scatterAdd_nonneg {s si su : Shape} (d : ScatterDims s si su) {w : Nat} (x : s.Idx → EReal) (idx : IVec si w)
    (upd : su.Idx → EReal) (hx : ∀ i, 0 ≤ x i) (hu : ∀ j, 0 ≤ upd j) (i : s.Idx) :
    0 ≤ Ideal.hostScatterAdd d x idx upd i := by
  unfold Ideal.hostScatterAdd
  exact add_nonneg (hx i) (Finset.sum_nonneg fun j _ => hu j)

/-- The same for the host's scatter-add of a printed program at the extended reals. -/
theorem host_scatterAdd_nonneg {s si su : Shape} (d : ScatterDims s si su) {w : Nat} (x : FVec Ideal s .f32) (idx : IVec si w)
    (upd : FVec Ideal su .f32) (hx : ∀ i, 0 ≤ x i) (hu : ∀ j, 0 ≤ upd j) (i : s.Idx) :
    0 ≤ Host.scatterAdd (F := Ideal) d x idx upd i :=
  scatterAdd_nonneg d x idx upd hx hu i

/-- Entry by entry, on a non-negative array: the host's square root is the host's exponential of the array of halves
    times the host's logarithm. -/
theorem host_sqrt_eq_exp_half_log {s : Shape} (S H : FVec Ideal s .f32) (hS : ∀ i, 0 ≤ S i)
    (hH : ∀ i, H i = Ideal.ofBits .f32 0x3F000000#32) :
    Host.sqrt (F := Ideal) S = Host.exp (F := Ideal) (mulf H (Host.log (F := Ideal) S)) := by
  funext i
  show Ideal.sqrt (S i) = Ideal.exp (H i * Ideal.log (S i))
  rw [hH i]
  exact sqrt_eq_exp_half_log (S i) (hS i)

end Cert.RootLaw

end
-- ==== Proof.StageOut.lean ====
/-
  After the last host stretch: the two edge embeddings pass through, and the node embedding — noise times the square
  root of a scatter-add of non-negative terms, plus a scatter-add of means — is the reference's, whose last lines
  spell the square root as the exponential of half the logarithm.
-/
import proofs.«103695_j56556129354623_2_alg».proof.Proof.Gen.KernelIdeal.Frame
import proofs.«103695_j56556129354623_2_alg».proof.Proof.Gen.ReferenceIdeal.Read
import proofs.«103695_j56556129354623_2_alg».proof.Proof.StageNode
import proofs.«103695_j56556129354623_2_alg».proof.Proof.LibRootLaw
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-! ## After the last host stretch: the three results -/

theorem W6_v40_0 : W6 m ρ c (Proc.devRef .tc main_v40_0) = val_main_v54 (F := Ideal) (A0 m c) (A1 m c) (A2 m c) (A3 m c) (A4 m c) (A6 m c) (A9 m c) (A10 m c) :=
  (StableHlo.after_of_forall_not_mem (b := Proc.devRef .tc main_v40_0) _ _ (by not_written hostOps3)).trans (W5_v40_0 m ρ c)
theorem W6_v40_1 : W6 m ρ c (Proc.devRef .tc main_v40_1) = val_main_v57 (F := Ideal) (A0 m c) (A1 m c) (A2 m c) (A3 m c) (A4 m c) (A7 m c) (A9 m c) (A10 m c) :=
  (StableHlo.after_of_forall_not_mem (b := Proc.devRef .tc main_v40_1) _ _ (by not_written hostOps3)).trans (W5_v40_1 m ρ c)

/-- The kernel's last line, entry by entry: noise times the square root of the variance, plus the mean. -/
abbrev rootForm (n v mu : FVec Ideal Cert.ReferenceIdeal.S100000x64 .f32) : FVec Ideal Cert.ReferenceIdeal.S100000x64 .f32 :=
  addf (mulf n (Host.sqrt v)) mu

set_option maxHeartbeats 400000 in
/-- The node embedding as the kernel's program leaves it: noise times the square root of the summed variances, plus the
    summed means — the reference's two scatter-adds under the kernel's last three operations. -/
theorem W6_v73_sqrt : W6 m ρ c (Proc.devRef .tc main_v73)
    = rootForm (A8 m c) (val_main_v99 (F := Ideal) (A0 m c) (A1 m c) (A3 m c) (A4 m c) (A5 m c) (A9 m c) (A11 m c))
        (val_main_v89 (F := Ideal) (A0 m c) (A1 m c) (A2 m c) (A4 m c) (A5 m c) (A9 m c) (A11 m c)) := by
  show StableHlo.after hostOps3 (W5 m ρ c) (Proc.devRef .tc main_v73) = _
  after_results_simp
  rw [W5_arg8, W5_arg11, W5_v60_0, W5_v60_1]
  unfold rootForm
  refine congrArg₂ addf (congrArg₂ mulf rfl (congrArg (Host.sqrt (F := Ideal)) ?_)) ?_
  · unfold val_main_v99
    exact scatter64_congr rfl rfl rfl
  · unfold val_main_v89
    exact scatter64_congr rfl rfl rfl

set_option maxHeartbeats 400000 in
/-- The summed variances are non-negative: zero plus a sum of squares times exponentials. -/
theorem var_nonneg (i : Cert.ReferenceIdeal.S100000x64.Idx) : 0 ≤ val_main_v99 (F := Ideal) (A0 m c) (A1 m c) (A3 m c) (A4 m c) (A5 m c) (A9 m c) (A11 m c) i := by
  unfold val_main_v99
  refine Cert.RootLaw.host_scatterAdd_nonneg _ _ _ _ (fun i => ?_) (fun j => ?_) i
  · rw [val_main_v97_apply, val_main_cst_10_apply, Ideal.ofBits_def, Ideal.ofBits_zero_f32]
  · rw [val_main_v94_apply, val_main_v93_apply, val_main_v91_apply, val_main_v90_apply, val_main_v92_apply]
    simp only [Ideal.mulf_def, Ideal.hostUnary_exp_def]
    exact EReal.mul_nonneg (Cert.RootLaw.mul_self_nonneg _) (Cert.RootLaw.exp_nonneg _)

set_option maxHeartbeats 400000 in
/-- The node embedding is the reference's: on a non-negative variance the square root is the exponential of half the
    logarithm. -/
theorem W6_v73 : W6 m ρ c (Proc.devRef .tc main_v73) = val_main_v105 (F := Ideal) (A0 m c) (A1 m c) (A2 m c) (A3 m c) (A4 m c) (A5 m c) (A8 m c) (A9 m c) (A11 m c) := by
  rw [W6_v73_sqrt]
  unfold rootForm val_main_v105 val_main_v104 val_main_v103 val_main_v102 val_main_v101 val_main_v100 val_main_cst_11
  exact congrArg₂ addf (congrArg₂ mulf rfl
    (Cert.RootLaw.host_sqrt_eq_exp_half_log _ _ (var_nonneg m c) (fun _ => rfl))) rfl

end Cert.KernelIdeal.Stages

end
-- ==== Proof.lean ====
/-
  The certificate: the kernel, its idealization and the reference each run to the end without a fault and leave their
  arguments as launched; the idealization rewrote nothing; and at the extended reals the idealized kernel and the
  idealized reference, run from memories that agree on the twelve arguments, end with the same three arrays.

  The kernel computes  X · W_gcn  in a first launch, gathers its rows along the graph's non-zeros, scales and
  scatter-adds them into the hidden rows, gathers hidden rows at the ends of every directed and bidirectional edge,
  and in two more launches multiplies the two rows of an edge, laid side by side, by the packed weight
  [W_miu | W_sigma]; the reference multiplies each row by the upper or lower half of each weight and adds. A sum over
  256 terms split into two sums over 128 is the same extended real, so the launches' outputs are the reference's own
  stage values; every host operation between the launches is one the reference applies too. The last line differs:
  the kernel takes  sqrt(v),  the reference  exp(0.5 · log v);  v  is a sum of squares times exponentials added to
  zero, hence non-negative, and there the two agree (also at 0 and at +∞).
-/
import proofs.«103695_j56556129354623_2_alg».proof.Defs
import proofs.«103695_j56556129354623_2_alg».proof.Proof.Gen.Kernel
import proofs.«103695_j56556129354623_2_alg».proof.Proof.Gen.Kernel.Frame
import proofs.«103695_j56556129354623_2_alg».proof.Proof.Gen.KernelIdeal
import proofs.«103695_j56556129354623_2_alg».proof.Proof.Gen.KernelIdeal.Frame
import proofs.«103695_j56556129354623_2_alg».proof.Proof.Gen.ReferenceIdeal
import proofs.«103695_j56556129354623_2_alg».proof.Proof.Gen.ReferenceIdeal.Run
import proofs.«103695_j56556129354623_2_alg».proof.Proof.Gen.ReferenceIdeal.Read
import proofs.«103695_j56556129354623_2_alg».proof.Proof.Gen.Pre_finite_inputs
import proofs.«103695_j56556129354623_2_alg».proof.Proof.KRun
import proofs.«103695_j56556129354623_2_alg».proof.Proof.StageOut
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

set_option maxHeartbeats 1000000 in
/-- Both idealized programs end with the node embedding, the incoming and the outgoing edge embedding at the
    reference's stage functions of the shared arguments. -/
theorem algebraic : Cert.algebraic_KernelIdeal_ReferenceIdeal := by
  intro m ρ m' ρ' _ hagree
  refine ⟨_, _, _, Cert.KernelIdeal.Gen.run_results (F := Ideal) m ρ, ?_⟩
  refine (θ_run Cert.ReferenceIdeal.defs _ _).mono (fun r h c => ?_) (Cert.ReferenceIdeal.Value.run (F := Ideal) m' ρ')
  obtain ⟨h0, h1, h2, hrest⟩ := h c
  obtain ⟨e0, e1, e2, e3, e4, e5, e6, e7, e8, e9, e10, e11⟩ := hagree c
  refine ⟨?_, ?_, ?_, hrest⟩
  · refine (h0).trans ?_
    rw [Cert.ReferenceIdeal.Read.val_main_v105_eq, Cert.KernelIdeal.Stages.W6_v73 m ρ c, e0, e1, e2, e3, e4, e5, e8, e9, e11]
  · refine (h1).trans ?_
    rw [Cert.ReferenceIdeal.Read.val_main_v54_eq, Cert.KernelIdeal.Stages.W6_v40_0 m ρ c, e0, e1, e2, e3, e4, e6, e9, e10]
  · refine (h2).trans ?_
    rw [Cert.ReferenceIdeal.Read.val_main_v57_eq, Cert.KernelIdeal.Stages.W6_v40_1 m ρ c, e0, e1, e2, e3, e4, e7, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
